-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x1024x128 : Shape := ⟨3, ![128, 1024, 128]⟩
abbrev S128x128x3 : Shape := ⟨3, ![128, 128, 3]⟩
abbrev S128x3 : Shape := ⟨2, ![128, 3]⟩
abbrev S128x4x128 : Shape := ⟨3, ![128, 4, 128]⟩
abbrev S_ : Shape := ⟨0, ![]⟩

class Facts : Prop where
  bcast_S_S128x1024x128 : S_.BroadcastsInDim S128x1024x128 (![] : Fin 0 → Fin S128x1024x128.rank)
  reducesTo_S128x1024x128_S_d0_1_2 : S128x1024x128.ReducesTo [0, 1, 2] S_
  h_S_ : 0 < S_.numel
  bcast_S_S128x128x3 : S_.BroadcastsInDim S128x128x3 (![] : Fin 0 → Fin S128x128x3.rank)
  reducesTo_S128x128x3_S_d0_1_2 : S128x128x3.ReducesTo [0, 1, 2] S_
  bcast_S_S128x3 : S_.BroadcastsInDim S128x3 (![] : Fin 0 → Fin S128x3.rank)
  reducesTo_S128x3_S_d0_1 : S128x3.ReducesTo [0, 1] S_
  bcast_S_S128x4x128 : S_.BroadcastsInDim S128x4x128 (![] : Fin 0 → Fin S128x4x128.rank)
  reducesTo_S128x4x128_S_d0_1_2 : S128x4x128.ReducesTo [0, 1, 2] S_

variable [Facts]

def fn_part1 {F : FTy → Type} [FloatOps F] (main_v13 : IVec S_ 1) (main_v16 : IVec S128x4x128 1) : IVec S_ 1 :=
  let main_c_5 : IVec S_ 1 := constantI S_ 1 1#1
  let main_v17 : IVec S_ 1 := (fun x v => Host.reduce IntOp.andi x v reducesTo_S128x4x128_S_d0_1_2 h_S_) main_v16 main_c_5
  let main_v18 : IVec S_ 1 := andi main_v13 main_v17
  main_v18

def fn {F : FTy → Type} [FloatOps F] (main_arg0 : FVec F S128x1024x128 .f32) (main_arg1 : FVec F S128x128x3 .f32) (main_arg2 : FVec F S128x3 .f32) (main_arg3 : FVec F S128x4x128 .f32) : IVec S_ 1 :=
  let main_v0 : FVec F S128x1024x128 .f32 := Host.absf main_arg0
  let main_cst : FVec F S_ .f32 := constant S_ .f32 0x7F800000#32
  let main_v1 : FVec F S128x1024x128 .f32 := broadcastInDim S128x1024x128 ![] bcast_S_S128x1024x128 main_cst
  let main_v2 : IVec S128x1024x128 1 := cmpf .olt main_v0 main_v1
  let main_c : IVec S_ 1 := constantI S_ 1 1#1
  let main_v3 : IVec S_ 1 := (fun x v => Host.reduce IntOp.andi x v reducesTo_S128x1024x128_S_d0_1_2 h_S_) main_v2 main_c
  let main_v4 : FVec F S128x128x3 .f32 := Host.absf main_arg1
  let main_cst_0 : FVec F S_ .f32 := constant S_ .f32 0x7F800000#32
  let main_v5 : FVec F S128x128x3 .f32 := broadcastInDim S128x128x3 ![] bcast_S_S128x128x3 main_cst_0
  let main_v6 : IVec S128x128x3 1 := cmpf .olt main_v4 main_v5
  let main_c_1 : IVec S_ 1 := constantI S_ 1 1#1
  let main_v7 : IVec S_ 1 := (fun x v => Host.reduce IntOp.andi x v reducesTo_S128x128x3_S_d0_1_2 h_S_) main_v6 main_c_1
  let main_v8 : IVec S_ 1 := andi main_v3 main_v7
  let main_v9 : FVec F S128x3 .f32 := Host.absf main_arg2
  let main_cst_2 : FVec F S_ .f32 := constant S_ .f32 0x7F800000#32
  let main_v10 : FVec F S128x3 .f32 := broadcastInDim S128x3 ![] bcast_S_S128x3 main_cst_2
  let main_v11 : IVec S128x3 1 := cmpf .olt main_v9 main_v10
  let main_c_3 : IVec S_ 1 := constantI S_ 1 1#1
  let main_v12 : IVec S_ 1 := (fun x v => Host.reduce IntOp.andi x v reducesTo_S128x3_S_d0_1 h_S_) main_v11 main_c_3
  let main_v13 : IVec S_ 1 := andi main_v8 main_v12
  let main_v14 : FVec F S128x4x128 .f32 := Host.absf main_arg3
  let main_cst_4 : FVec F S_ .f32 := constant S_ .f32 0x7F800000#32
  let main_v15 : FVec F S128x4x128 .f32 := broadcastInDim S128x4x128 ![] bcast_S_S128x4x128 main_cst_4
  let main_v16 : IVec S128x4x128 1 := cmpf .olt main_v14 main_v15
  fn_part1 (F := F) main_v13 main_v16
-- ==== Kernel.lean ====
abbrev S128x1024x128 : Shape := ⟨3, ![128, 1024, 128]⟩
abbrev S128x128x3 : Shape := ⟨3, ![128, 128, 3]⟩
abbrev S128x3 : Shape := ⟨2, ![128, 3]⟩
abbrev S128x4x128 : Shape := ⟨3, ![128, 4, 128]⟩
abbrev S128x1x3 : Shape := ⟨3, ![128, 1, 3]⟩
abbrev S1x512x128 : Shape := ⟨3, ![1, 512, 128]⟩
abbrev S1x128x3 : Shape := ⟨3, ![1, 128, 3]⟩
abbrev S1x1x3 : Shape := ⟨3, ![1, 1, 3]⟩
abbrev S1x4x128 : Shape := ⟨3, ![1, 4, 128]⟩
abbrev S512x128 : Shape := ⟨2, ![512, 128]⟩
abbrev S1x3 : Shape := ⟨2, ![1, 3]⟩
abbrev S4x128 : Shape := ⟨2, ![4, 128]⟩
abbrev S512x3 : Shape := ⟨2, ![512, 3]⟩
abbrev S512x1 : Shape := ⟨2, ![512, 1]⟩
abbrev S512x4 : Shape := ⟨2, ![512, 4]⟩

abbrev nBuf : Space → Nat
  | .hbm => 6
  | .vmem => 10
  | .smem => 0
  | _ => 0

abbrev bufTy : (tb : Table) → Fin (tcTables nBuf tb) → BufTy
  | .hbm, ⟨0, _⟩ => ⟨S128x1024x128, .f32⟩
  | .hbm, ⟨1, _⟩ => ⟨S128x128x3, .f32⟩
  | .hbm, ⟨2, _⟩ => ⟨S128x3, .f32⟩
  | .hbm, ⟨3, _⟩ => ⟨S128x4x128, .f32⟩
  | .hbm, ⟨4, _⟩ => ⟨S128x1x3, .f32⟩
  | .hbm, ⟨5, _⟩ => ⟨S128x1024x128, .f32⟩
  | .local _ .vmem, ⟨0, _⟩ => ⟨S1x512x128, .f32⟩
  | .local _ .vmem, ⟨1, _⟩ => ⟨S1x512x128, .f32⟩
  | .local _ .vmem, ⟨2, _⟩ => ⟨S1x128x3, .f32⟩
  | .local _ .vmem, ⟨3, _⟩ => ⟨S1x128x3, .f32⟩
  | .local _ .vmem, ⟨4, _⟩ => ⟨S1x1x3, .f32⟩
  | .local _ .vmem, ⟨5, _⟩ => ⟨S1x1x3, .f32⟩
  | .local _ .vmem, ⟨6, _⟩ => ⟨S1x4x128, .f32⟩
  | .local _ .vmem, ⟨7, _⟩ => ⟨S1x4x128, .f32⟩
  | .local _ .vmem, ⟨8, _⟩ => ⟨S1x512x128, .f32⟩
  | .local _ .vmem, ⟨9, _⟩ => ⟨S1x512x128, .f32⟩
  | _, _ => ⟨S128x1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![128, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x4x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  bcast_S128x3_S128x1x3_0_2 : S128x3.BroadcastsInDim S128x1x3 (![0, 2] : Fin 2 → Fin S128x1x3.rank)
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  inb_S1x128x3_S1x128x3_0_0_0 : ∀ a, (![0, 0, 0] : Fin 3 → Nat) a + S1x128x3.size a ≤ S1x128x3.size a
  h_S1x128x3 : 0 < S1x128x3.numel
  shapeCasts_S1x128x3_S128x3 : S1x128x3.ShapeCasts S128x3
  inb_S1x1x3_S1x1x3_0_0_0 : ∀ a, (![0, 0, 0] : Fin 3 → Nat) a + S1x1x3.size a ≤ S1x1x3.size a
  h_S1x1x3 : 0 < S1x1x3.numel
  shapeCasts_S1x1x3_S1x3 : S1x1x3.ShapeCasts S1x3
  inb_S1x4x128_S1x4x128_0_0_0 : ∀ a, (![0, 0, 0] : Fin 3 → Nat) a + S1x4x128.size a ≤ S1x4x128.size a
  h_S1x4x128 : 0 < S1x4x128.numel
  shapeCasts_S1x4x128_S4x128 : S1x4x128.ShapeCasts S4x128
  broadcasts_S1x3_S512x3 : S1x3.Broadcasts S512x3
  natLt_1_32 : 1 < 32
  slices_S512x3_o0_0_S512x1 : S512x3.Slices ![0, 0] S512x1
  slices_S512x3_o0_1_S512x1 : S512x3.Slices ![0, 1] S512x1
  slices_S512x3_o0_2_S512x1 : S512x3.Slices ![0, 2] S512x1
  concatenates_S512x1_S512x1_S512x1_S512x1_S512x4_d1 : Shape.Concatenates [S512x1, S512x1, S512x1, S512x1] S512x4 1
  shapeCasts_S512x128_S1x512x128 : S512x128.ShapeCasts S1x512x128
  dot_S512x128_S128x3_S512x3_1_0_0_1_n_n_wf : DotDims.WF S512x128 S128x3 S512x3 [1] [0] [0] [1] [] []
  dot_S512x4_S4x128_S512x128_1_0_0_1_n_n_wf : DotDims.WF S512x4 S4x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x128.size a ≤ S128x1024x128.size a
  hwx0_0 : ∀ i : grid0.Coords, EltTy.bits .f32 = 32 ∨ (Rect.block (s := S128x1024x128) S1x512x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x3.size a ≤ S128x128x3.size a
  hwx0_1 : ∀ i : grid0.Coords, EltTy.bits .f32 = 32 ∨ (Rect.block (s := S128x128x3) S1x128x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x3.size a ≤ S128x1x3.size a
  hwx0_2 : ∀ i : grid0.Coords, EltTy.bits .f32 = 32 ∨ (Rect.block (s := S128x1x3) S1x1x3.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x4x128.size a ≤ S128x4x128.size a
  hwx0_3 : ∀ i : grid0.Coords, EltTy.bits .f32 = 32 ∨ (Rect.block (s := S128x4x128) S1x4x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x128.size a ≤ S128x1024x128.size a
  hwx0_4 : ∀ i : grid0.Coords, EltTy.bits .f32 = 32 ∨ (Rect.block (s := S128x1024x128) S1x512x128.size (cc0_transform_4 i) (hinb0_4 i)).WholeWords (EltTy.packing .f32)

variable [Facts₀]

def dot_S512x128_S128x3_S512x3_1_0_0_1_n_n : DotDims S512x128 S128x3 S512x3 where
  lhsContracting := [1]
  rhsContracting := [0]
  lhsNonContracting := [0]
  rhsNonContracting := [1]
  lhsBatch := []
  rhsBatch := []
  wf := dot_S512x128_S128x3_S512x3_1_0_0_1_n_n_wf
def dot_S512x4_S4x128_S512x128_1_0_0_1_n_n : DotDims S512x4 S4x128 S512x128 where
  lhsContracting := [1]
  rhsContracting := [0]
  lhsNonContracting := [0]
  rhsNonContracting := [1]
  lhsBatch := []
  rhsBatch := []
  wf := dot_S512x4_S4x128_S512x128_1_0_0_1_n_n_wf

abbrev win0_0 : Pipeline.Window sig grid0 :=
  Pipeline.Window.ofSpec (Memref.whole main_arg0) S1x512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x128x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1x3.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x4x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x512x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S128x1024x128 : Shape := ⟨3, ![128, 1024, 128]⟩
abbrev S128x128x3 : Shape := ⟨3, ![128, 128, 3]⟩
abbrev S128x3 : Shape := ⟨2, ![128, 3]⟩
abbrev S128x4x128 : Shape := ⟨3, ![128, 4, 128]⟩
abbrev S128x1x3 : Shape := ⟨3, ![128, 1, 3]⟩
abbrev S_ : Shape := ⟨0, ![]⟩
abbrev S130x1024x128 : Shape := ⟨3, ![130, 1024, 128]⟩
abbrev S130x128x3 : Shape := ⟨3, ![130, 128, 3]⟩
abbrev S130x1x3 : Shape := ⟨3, ![130, 1, 3]⟩
abbrev S130x4x128 : Shape := ⟨3, ![130, 4, 128]⟩
abbrev S10x512x128 : Shape := ⟨3, ![10, 512, 128]⟩
abbrev S10x128x3 : Shape := ⟨3, ![10, 128, 3]⟩
abbrev S10x1x3 : Shape := ⟨3, ![10, 1, 3]⟩
abbrev S10x4x128 : Shape := ⟨3, ![10, 4, 128]⟩
abbrev S10x512x3 : Shape := ⟨3, ![10, 512, 3]⟩
abbrev S10x512x1 : Shape := ⟨3, ![10, 512, 1]⟩
abbrev S10x1x128 : Shape := ⟨3, ![10, 1, 128]⟩

abbrev nBuf : Space → Nat
  | .hbm => 19
  | .vmem => 10
  | .smem => 0
  | _ => 0

abbrev bufTy : (tb : Table) → Fin (tcTables nBuf tb) → BufTy
  | .hbm, ⟨0, _⟩ => ⟨S128x1024x128, .f32⟩
  | .hbm, ⟨1, _⟩ => ⟨S128x128x3, .f32⟩
  | .hbm, ⟨2, _⟩ => ⟨S128x3, .f32⟩
  | .hbm, ⟨3, _⟩ => ⟨S128x4x128, .f32⟩
  | .hbm, ⟨4, _⟩ => ⟨S128x1x3, .f32⟩
  | .hbm, ⟨5, _⟩ => ⟨S_, .i32⟩
  | .hbm, ⟨6, _⟩ => ⟨S_, .f32⟩
  | .hbm, ⟨7, _⟩ => ⟨S130x1024x128, .f32⟩
  | .hbm, ⟨8, _⟩ => ⟨S_, .i32⟩
  | .hbm, ⟨9, _⟩ => ⟨S_, .f32⟩
  | .hbm, ⟨10, _⟩ => ⟨S130x128x3, .f32⟩
  | .hbm, ⟨11, _⟩ => ⟨S_, .i32⟩
  | .hbm, ⟨12, _⟩ => ⟨S_, .f32⟩
  | .hbm, ⟨13, _⟩ => ⟨S130x1x3, .f32⟩
  | .hbm, ⟨14, _⟩ => ⟨S_, .i32⟩
  | .hbm, ⟨15, _⟩ => ⟨S_, .f32⟩
  | .hbm, ⟨16, _⟩ => ⟨S130x4x128, .f32⟩
  | .hbm, ⟨17, _⟩ => ⟨S130x1024x128, .f32⟩
  | .hbm, ⟨18, _⟩ => ⟨S128x1024x128, .f32⟩
  | .local _ .vmem, ⟨0, _⟩ => ⟨S10x512x128, .f32⟩
  | .local _ .vmem, ⟨1, _⟩ => ⟨S10x512x128, .f32⟩
  | .local _ .vmem, ⟨2, _⟩ => ⟨S10x128x3, .f32⟩
  | .local _ .vmem, ⟨3, _⟩ => ⟨S10x128x3, .f32⟩
  | .local _ .vmem, ⟨4, _⟩ => ⟨S10x1x3, .f32⟩
  | .local _ .vmem, ⟨5, _⟩ => ⟨S10x1x3, .f32⟩
  | .local _ .vmem, ⟨6, _⟩ => ⟨S10x4x128, .f32⟩
  | .local _ .vmem, ⟨7, _⟩ => ⟨S10x4x128, .f32⟩
  | .local _ .vmem, ⟨8, _⟩ => ⟨S10x512x128, .f32⟩
  | .local _ .vmem, ⟨9, _⟩ => ⟨S10x512x128, .f32⟩
  | _, _ => ⟨S128x1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_c_0 : Ref sig .tc := ⟨.hbm, 8, rfl⟩
abbrev main_call1_v0 : Ref sig .tc := ⟨.hbm, 9, rfl⟩
abbrev main_v2 : Ref sig .tc := ⟨.hbm, 10, rfl⟩
abbrev main_c_1 : Ref sig .tc := ⟨.hbm, 11, rfl⟩
abbrev main_call2_v0 : Ref sig .tc := ⟨.hbm, 12, rfl⟩
abbrev main_v3 : Ref sig .tc := ⟨.hbm, 13, rfl⟩
abbrev main_c_2 : Ref sig .tc := ⟨.hbm, 14, rfl⟩
abbrev main_call3_v0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![13, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S10x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S10x128x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S10x1x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S10x4x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S10x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  bcast_S128x3_S128x1x3_0_2 : S128x3.BroadcastsInDim S128x1x3 (![0, 2] : Fin 2 → Fin S128x1x3.rank)
  pads_S128x1024x128_S130x1024x128_020_000_000 : S128x1024x128.Pads (![0, 0, 0] : Fin 3 → Nat) ![2, 0, 0] ![0, 0, 0] S130x1024x128
  h_S_ : 0 < S_.numel
  pads_S128x128x3_S130x128x3_020_000_000 : S128x128x3.Pads (![0, 0, 0] : Fin 3 → Nat) ![2, 0, 0] ![0, 0, 0] S130x128x3
  pads_S128x1x3_S130x1x3_020_000_000 : S128x1x3.Pads (![0, 0, 0] : Fin 3 → Nat) ![2, 0, 0] ![0, 0, 0] S130x1x3
  pads_S128x4x128_S130x4x128_020_000_000 : S128x4x128.Pads (![0, 0, 0] : Fin 3 → Nat) ![2, 0, 0] ![0, 0, 0] S130x4x128
  inb_S10x512x128_S10x512x128_0_0_0 : ∀ a, (![0, 0, 0] : Fin 3 → Nat) a + S10x512x128.size a ≤ S10x512x128.size a
  h_S10x512x128 : 0 < S10x512x128.numel
  shapeCasts_S10x512x128_S10x512x128 : S10x512x128.ShapeCasts S10x512x128
  inb_S10x128x3_S10x128x3_0_0_0 : ∀ a, (![0, 0, 0] : Fin 3 → Nat) a + S10x128x3.size a ≤ S10x128x3.size a
  h_S10x128x3 : 0 < S10x128x3.numel
  shapeCasts_S10x128x3_S10x128x3 : S10x128x3.ShapeCasts S10x128x3
  inb_S10x1x3_S10x1x3_0_0_0 : ∀ a, (![0, 0, 0] : Fin 3 → Nat) a + S10x1x3.size a ≤ S10x1x3.size a
  h_S10x1x3 : 0 < S10x1x3.numel
  shapeCasts_S10x1x3_S10x1x3 : S10x1x3.ShapeCasts S10x1x3
  inb_S10x4x128_S10x4x128_0_0_0 : ∀ a, (![0, 0, 0] : Fin 3 → Nat) a + S10x4x128.size a ≤ S10x4x128.size a
  h_S10x4x128 : 0 < S10x4x128.numel
  shapeCasts_S10x4x128_S10x4x128 : S10x4x128.ShapeCasts S10x4x128
  broadcasts_S10x1x3_S10x512x3 : S10x1x3.Broadcasts S10x512x3
  natLt_1_32 : 1 < 32
  slices_S10x512x3_o0_0_0_S10x512x1 : S10x512x3.Slices ![0, 0, 0] S10x512x1
  slices_S10x512x3_o0_0_1_S10x512x1 : S10x512x3.Slices ![0, 0, 1] S10x512x1
  slices_S10x512x3_o0_0_2_S10x512x1 : S10x512x3.Slices ![0, 0, 2] S10x512x1
  slices_S10x4x128_o0_0_0_S10x1x128 : S10x4x128.Slices ![0, 0, 0] S10x1x128
  broadcasts_S10x512x1_S10x512x128 : S10x512x1.Broadcasts S10x512x128
  broadcasts_S10x1x128_S10x512x128 : S10x1x128.Broadcasts S10x512x128
  slices_S10x4x128_o0_1_0_S10x1x128 : S10x4x128.Slices ![0, 1, 0] S10x1x128
  slices_S10x4x128_o0_2_0_S10x1x128 : S10x4x128.Slices ![0, 2, 0] S10x1x128
  slices_S10x4x128_o0_3_0_S10x1x128 : S10x4x128.Slices ![0, 3, 0] S10x1x128
  slices_S130x1024x128_S128x1024x128_0_0_0 : S130x1024x128.Slices ![0, 0, 0] S128x1024x128
  dot_S10x512x128_S10x128x3_S10x512x3_2_1_1_2_0_0_wf : DotDims.WF S10x512x128 S10x128x3 S10x512x3 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10x512x128.size a ≤ S130x1024x128.size a
  hwx0_0 : ∀ i : grid0.Coords, EltTy.bits .f32 = 32 ∨ (Rect.block (s := S130x1024x128) S10x512x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10x128x3.size a ≤ S130x128x3.size a
  hwx0_1 : ∀ i : grid0.Coords, EltTy.bits .f32 = 32 ∨ (Rect.block (s := S130x128x3) S10x128x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10x1x3.size a ≤ S130x1x3.size a
  hwx0_2 : ∀ i : grid0.Coords, EltTy.bits .f32 = 32 ∨ (Rect.block (s := S130x1x3) S10x1x3.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10x4x128.size a ≤ S130x4x128.size a
  hwx0_3 : ∀ i : grid0.Coords, EltTy.bits .f32 = 32 ∨ (Rect.block (s := S130x4x128) S10x4x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S10x512x128.size a ≤ S130x1024x128.size a
  hwx0_4 : ∀ i : grid0.Coords, EltTy.bits .f32 = 32 ∨ (Rect.block (s := S130x1024x128) S10x512x128.size (cc0_transform_4 i) (hinb0_4 i)).WholeWords (EltTy.packing .f32)

variable [Facts₀]

def dot_S10x512x128_S10x128x3_S10x512x3_2_1_1_2_0_0 : DotDims S10x512x128 S10x128x3 S10x512x3 where
  lhsContracting := [2]
  rhsContracting := [1]
  lhsNonContracting := [1]
  rhsNonContracting := [2]
  lhsBatch := [0]
  rhsBatch := [0]
  wf := dot_S10x512x128_S10x128x3_S10x512x3_2_1_1_2_0_0_wf

abbrev win0_0 : Pipeline.Window sig grid0 :=
  Pipeline.Window.ofSpec (Memref.whole main_v1) S10x512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S10x128x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S10x1x3.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S10x4x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S10x512x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== Proof.TreeSpec.lean ====
/-
  The depth-2 decision tree both programs evaluate, as ONE function of the argument arrays, index by index, on the
  extended reals. For batch member `b`, row `l`, output column `y`:
    feature  f_n = ∑ d, x[b,l,d] · onehot[b,d,n]              (n = 0, 1, 2: the three split features)
    decision c_n = 1 if f_n + ε < thr[b,n] else 0             (a comparison read as a number)
    weights  w₀ = c₀c₁, w₁ = c₀ − c₀c₁, w₂, w₃                 (exactly one is 1)
    result   w₀·leaf[b,0,y] + w₁·leaf[b,1,y] + w₂·leaf[b,2,y] + w₃·leaf[b,3,y].
  The two programs differ in how they spell w₂ and w₃ — `c₂ − c₀c₂` and `(1 − c₀) − w₂` with the four products summed
  by a matrix product (`mixK`), against `(1 − c₀)·c₂` and `(1 − c₀) − w₂` summed left to right (`mixR`) — and agree
  because every decision is 0 or 1 (`mix_eq`): no finiteness of the inputs is needed, the leaf values may be anything.
  The batch extent `B` is a parameter: one program works on the 128 members, the other on 130 (two padded ones, cut away).
-/
import Idealize.ShloMosaic.PureOps.Ideal.Laws
import Idealize.ShloMosaic.Lib.ValueIdx
import Idealize.ShloMosaic.Lib.KernelVsHost

noncomputable section

namespace Tree

open Idealize.ShloMosaic Idealize.ShloMosaic.ValueIdx

/-- A comparison `a < b` read as a number: the one-bit result widened to a word and converted. -/
def dec (a b : EReal) : EReal :=
  FloatOps.sitofp (F := Ideal) .f32 ((FloatOps.cmpf (F := Ideal) (φ := .f32) .olt a b).setWidth 32)

/-- It is 0 or 1. -/
theorem dec_cases (a b : EReal) : dec a b = 0 ∨ dec a b = 1 := by
  unfold dec
  rcases BitVec.eq_zero_or_eq_one (FloatOps.cmpf (F := Ideal) (φ := .f32) .olt a b) with h | h
  · left; rw [h]
    show ((((0#1 : BitVec 1).setWidth 32).toInt : ℝ) : EReal) = 0
    rw [toInt_setWidth_bit]; simp
  · right; rw [h]
    show ((((1#1 : BitVec 1).setWidth 32).toInt : ℝ) : EReal) = 1
    rw [toInt_setWidth_bit]; simp

/-- The margin added to a feature before the comparison, and the literal one, as the programs spell them. -/
def eps : EReal := Ideal.ofBits .f32 0x3727C5AC#32
def one : EReal := Ideal.ofBits .f32 0x3F800000#32

theorem one_eq : one = 1 := IdealRules.sign_bit.ideal_onePat .f32

/-- The four leaf weights as one program forms them, -/
def wK (c0 c1 c2 : EReal) : Fin 4 → EReal := ![c0 * c1, c0 - c0 * c1, c2 - c0 * c2, (one - c0) - (c2 - c0 * c2)]

/-- and the leaf mixture as a sum over the four leaves (a matrix product's contraction). -/
def mixK (c0 c1 c2 : EReal) (lf : Fin 4 → EReal) : EReal := ∑ k : Fin 4, wK c0 c1 c2 k * lf k

/-- The other program's mixture: the right subtree's weight as a product, the terms added left to right. -/
def mixR (c0 c1 c2 : EReal) (lf : Fin 4 → EReal) : EReal :=
  c0 * c1 * lf 0 + (c0 - c0 * c1) * lf 1 + (one - c0) * c2 * lf 2 + ((one - c0) - (one - c0) * c2) * lf 3

private theorem one_sub_one : (1 : EReal) - 1 = 0 := by
  rw [← EReal.coe_one, ← EReal.coe_sub]; simp
private theorem one_sub_zero : (1 : EReal) - 0 = 1 := sub_zero _
private theorem zero_sub_zero : (0 : EReal) - 0 = 0 := sub_zero _

/-- On 0/1 decisions the two mixtures are one number, whatever the leaf values (infinite ones included). -/
theorem mix_eq {c0 c1 c2 : EReal} (h0 : c0 = 0 ∨ c0 = 1) (h1 : c1 = 0 ∨ c1 = 1) (h2 : c2 = 0 ∨ c2 = 1) (lf : Fin 4 → EReal) :
    mixK c0 c1 c2 lf = mixR c0 c1 c2 lf := by
  unfold mixK mixR wK
  rw [Fin.sum_univ_four]
  simp only [Matrix.cons_val_zero, Matrix.cons_val_one, Matrix.cons_val]
  rw [one_eq]
  rcases h0 with rfl | rfl <;> rcases h2 with rfl | rfl <;>
    simp only [zero_mul, mul_zero, one_mul, mul_one, one_sub_one, one_sub_zero, zero_sub_zero]

variable {B L : Nat}

/-- Split feature `n` of row `l` of batch member `b`: the row against the member's one-hot column. -/
def feat (x : (⟨3, ![B, L, 128]⟩ : Shape).Idx → EReal) (oh : (⟨3, ![B, 128, 3]⟩ : Shape).Idx → EReal)
    (b : Fin B) (l : Fin L) (n : Fin 3) : EReal :=
  ∑ d : Fin 128, x (ix3 b l d) * oh (ix3 b d n)

/-- Decision `n` of that row: is the feature plus the margin below the member's threshold `n`? -/
def dcs (x : (⟨3, ![B, L, 128]⟩ : Shape).Idx → EReal) (oh : (⟨3, ![B, 128, 3]⟩ : Shape).Idx → EReal)
    (thr : (⟨3, ![B, 1, 3]⟩ : Shape).Idx → EReal) (b : Fin B) (l : Fin L) (n : Fin 3) : EReal :=
  dec (feat x oh b l n + eps) (thr (ix3 b (0 : Fin 1) n))

theorem dcs_cases (x : (⟨3, ![B, L, 128]⟩ : Shape).Idx → EReal) (oh : (⟨3, ![B, 128, 3]⟩ : Shape).Idx → EReal)
    (thr : (⟨3, ![B, 1, 3]⟩ : Shape).Idx → EReal) (b : Fin B) (l : Fin L) (n : Fin 3) :
    dcs x oh thr b l n = 0 ∨ dcs x oh thr b l n = 1 := dec_cases _ _

/-- The tree's prediction with the weights mixed by a contraction over the leaves, -/
def outK (x : (⟨3, ![B, L, 128]⟩ : Shape).Idx → EReal) (oh : (⟨3, ![B, 128, 3]⟩ : Shape).Idx → EReal)
    (thr : (⟨3, ![B, 1, 3]⟩ : Shape).Idx → EReal) (leaf : (⟨3, ![B, 4, 128]⟩ : Shape).Idx → EReal)
    (b : Fin B) (l : Fin L) (y : Fin 128) : EReal :=
  mixK (dcs x oh thr b l 0) (dcs x oh thr b l 1) (dcs x oh thr b l 2) (fun k => leaf (ix3 b k y))

/-- and with the weighted leaves added left to right. -/
def outR (x : (⟨3, ![B, L, 128]⟩ : Shape).Idx → EReal) (oh : (⟨3, ![B, 128, 3]⟩ : Shape).Idx → EReal)
    (thr : (⟨3, ![B, 1, 3]⟩ : Shape).Idx → EReal) (leaf : (⟨3, ![B, 4, 128]⟩ : Shape).Idx → EReal)
    (b : Fin B) (l : Fin L) (y : Fin 128) : EReal :=
  mixR (dcs x oh thr b l 0) (dcs x oh thr b l 1) (dcs x oh thr b l 2) (fun k => leaf (ix3 b k y))

theorem outK_eq_outR (x : (⟨3, ![B, L, 128]⟩ : Shape).Idx → EReal) (oh : (⟨3, ![B, 128, 3]⟩ : Shape).Idx → EReal)
    (thr : (⟨3, ![B, 1, 3]⟩ : Shape).Idx → EReal) (leaf : (⟨3, ![B, 4, 128]⟩ : Shape).Idx → EReal)
    (b : Fin B) (l : Fin L) (y : Fin 128) : outK x oh thr leaf b l y = outR x oh thr leaf b l y :=
  mix_eq (dcs_cases ..) (dcs_cases ..) (dcs_cases ..) _

/-- The prediction at (b, l, y) reads only member `b`'s row `l`, one-hot matrix, thresholds and leaf column `y`: two
    families of arrays (of any batch and row extents) that agree there give one prediction. This is what carries a
    block's result to the whole array's, and a padded array's to the unpadded one's. -/
theorem dcs_congr {B' L' : Nat} {x : (⟨3, ![B, L, 128]⟩ : Shape).Idx → EReal} {oh : (⟨3, ![B, 128, 3]⟩ : Shape).Idx → EReal}
    {thr : (⟨3, ![B, 1, 3]⟩ : Shape).Idx → EReal}
    {x' : (⟨3, ![B', L', 128]⟩ : Shape).Idx → EReal} {oh' : (⟨3, ![B', 128, 3]⟩ : Shape).Idx → EReal}
    {thr' : (⟨3, ![B', 1, 3]⟩ : Shape).Idx → EReal}
    {b : Fin B} {l : Fin L} {b' : Fin B'} {l' : Fin L'}
    (hx : ∀ d : Fin 128, x (ix3 b l d) = x' (ix3 b' l' d))
    (hoh : ∀ (d : Fin 128) (n : Fin 3), oh (ix3 b d n) = oh' (ix3 b' d n))
    (hthr : ∀ n : Fin 3, thr (ix3 b (0 : Fin 1) n) = thr' (ix3 b' (0 : Fin 1) n)) (n : Fin 3) :
    dcs x oh thr b l n = dcs x' oh' thr' b' l' n := by
  unfold dcs feat
  rw [hthr n]
  exact congrArg (fun s => dec (s + eps) _) (Finset.sum_congr rfl fun d _ => by rw [hx d, hoh d n])

theorem outR_congr {B' L' : Nat} {x : (⟨3, ![B, L, 128]⟩ : Shape).Idx → EReal} {oh : (⟨3, ![B, 128, 3]⟩ : Shape).Idx → EReal}
    {thr : (⟨3, ![B, 1, 3]⟩ : Shape).Idx → EReal} {leaf : (⟨3, ![B, 4, 128]⟩ : Shape).Idx → EReal}
    {x' : (⟨3, ![B', L', 128]⟩ : Shape).Idx → EReal} {oh' : (⟨3, ![B', 128, 3]⟩ : Shape).Idx → EReal}
    {thr' : (⟨3, ![B', 1, 3]⟩ : Shape).Idx → EReal} {leaf' : (⟨3, ![B', 4, 128]⟩ : Shape).Idx → EReal}
    {b : Fin B} {l : Fin L} {b' : Fin B'} {l' : Fin L'} (y : Fin 128)
    (hx : ∀ d : Fin 128, x (ix3 b l d) = x' (ix3 b' l' d))
    (hoh : ∀ (d : Fin 128) (n : Fin 3), oh (ix3 b d n) = oh' (ix3 b' d n))
    (hthr : ∀ n : Fin 3, thr (ix3 b (0 : Fin 1) n) = thr' (ix3 b' (0 : Fin 1) n))
    (hleaf : ∀ k : Fin 4, leaf (ix3 b k y) = leaf' (ix3 b' k y)) :
    outR x oh thr leaf b l y = outR x' oh' thr' leaf' b' l' y := by
  unfold outR
  rw [dcs_congr hx hoh hthr 0, dcs_congr hx hoh hthr 1, dcs_congr hx hoh hthr 2, funext hleaf]

theorem outK_congr {B' L' : Nat} {x : (⟨3, ![B, L, 128]⟩ : Shape).Idx → EReal} {oh : (⟨3, ![B, 128, 3]⟩ : Shape).Idx → EReal}
    {thr : (⟨3, ![B, 1, 3]⟩ : Shape).Idx → EReal} {leaf : (⟨3, ![B, 4, 128]⟩ : Shape).Idx → EReal}
    {x' : (⟨3, ![B', L', 128]⟩ : Shape).Idx → EReal} {oh' : (⟨3, ![B', 128, 3]⟩ : Shape).Idx → EReal}
    {thr' : (⟨3, ![B', 1, 3]⟩ : Shape).Idx → EReal} {leaf' : (⟨3, ![B', 4, 128]⟩ : Shape).Idx → EReal}
    {b : Fin B} {l : Fin L} {b' : Fin B'} {l' : Fin L'} (y : Fin 128)
    (hx : ∀ d : Fin 128, x (ix3 b l d) = x' (ix3 b' l' d))
    (hoh : ∀ (d : Fin 128) (n : Fin 3), oh (ix3 b d n) = oh' (ix3 b' d n))
    (hthr : ∀ n : Fin 3, thr (ix3 b (0 : Fin 1) n) = thr' (ix3 b' (0 : Fin 1) n))
    (hleaf : ∀ k : Fin 4, leaf (ix3 b k y) = leaf' (ix3 b' k y)) :
    outK x oh thr leaf b l y = outK x' oh' thr' leaf' b' l' y := by
  unfold outK
  rw [dcs_congr hx hoh hthr 0, dcs_congr hx hoh hthr 1, dcs_congr hx hoh hthr 2, funext hleaf]

/-- The whole result array: the prediction at the index's three coordinates. -/
def arrK (x : (⟨3, ![B, L, 128]⟩ : Shape).Idx → EReal) (oh : (⟨3, ![B, 128, 3]⟩ : Shape).Idx → EReal)
    (thr : (⟨3, ![B, 1, 3]⟩ : Shape).Idx → EReal) (leaf : (⟨3, ![B, 4, 128]⟩ : Shape).Idx → EReal) :
    (⟨3, ![B, L, 128]⟩ : Shape).Idx → EReal := fun i => outK x oh thr leaf (i 0) (i 1) (i 2)

def arrR (x : (⟨3, ![B, L, 128]⟩ : Shape).Idx → EReal) (oh : (⟨3, ![B, 128, 3]⟩ : Shape).Idx → EReal)
    (thr : (⟨3, ![B, 1, 3]⟩ : Shape).Idx → EReal) (leaf : (⟨3, ![B, 4, 128]⟩ : Shape).Idx → EReal) :
    (⟨3, ![B, L, 128]⟩ : Shape).Idx → EReal := fun i => outR x oh thr leaf (i 0) (i 1) (i 2)

theorem arrK_eq_arrR (x : (⟨3, ![B, L, 128]⟩ : Shape).Idx → EReal) (oh : (⟨3, ![B, 128, 3]⟩ : Shape).Idx → EReal)
    (thr : (⟨3, ![B, 1, 3]⟩ : Shape).Idx → EReal) (leaf : (⟨3, ![B, 4, 128]⟩ : Shape).Idx → EReal) :
    arrK x oh thr leaf = arrR x oh thr leaf := funext fun _ => outK_eq_outR ..

end Tree

end
-- ==== Proof.KernelPayload.lean ====
/-
  The kernel's body, read at one index of the block it stores: for row `r` and column `y` of the one batch member in
  the block, the stored value is the tree's prediction (`Tree.outK`) of the four loaded blocks — the features by a
  matrix product against the one-hot columns, the decisions by a comparison, the four leaf weights laid side by side
  and contracted against the leaf rows by a second matrix product.
-/
import proofs.«159293_g2000404328929888_pallasbulk_837_2_alg».proof.Proof.Gen.KernelIdeal.Skeleton
import proofs.«159293_g2000404328929888_pallasbulk_837_2_alg».proof.Proof.TreeSpec
import Idealize.ShloMosaic.Lib.Pipeline.Value
import Idealize.ShloMosaic.Lib.ValueLayout

noncomputable section

namespace Cert.KernelIdeal.TreeValue

open Cert.KernelIdeal Cert.KernelIdeal.Gen Idealize.ShloMosaic Idealize.ShloMosaic.ValueIdx

/-- The operand indices of the product at a result index and a contraction position, axis by axis. -/
theorem feat_lhs0 (i : S512x3.Idx) (q : (dot_S512x128_S128x3_S512x3_1_0_0_1_n_n).contr.Idx) : ((dot_S512x128_S128x3_S512x3_1_0_0_1_n_n).lhsIdx i q 0).val = (i 0).val := by
  unfold DotDims.lhsIdx
  rw [dif_neg (show ¬(0 : Fin S512x128.rank) ∈ (dot_S512x128_S128x3_S512x3_1_0_0_1_n_n).lhsBatch by decide),
    dif_pos (show (0 : Fin S512x128.rank) ∈ (dot_S512x128_S128x3_S512x3_1_0_0_1_n_n).lhsNonContracting by decide)]
  rfl
theorem feat_lhs1 (i : S512x3.Idx) (q : (dot_S512x128_S128x3_S512x3_1_0_0_1_n_n).contr.Idx) : ((dot_S512x128_S128x3_S512x3_1_0_0_1_n_n).lhsIdx i q 1).val = (q ⟨0, by decide⟩).val :=
  (dot_S512x128_S128x3_S512x3_1_0_0_1_n_n).lhsIdx_val_of_single rfl i q
theorem feat_rhs0 (i : S512x3.Idx) (q : (dot_S512x128_S128x3_S512x3_1_0_0_1_n_n).contr.Idx) : ((dot_S512x128_S128x3_S512x3_1_0_0_1_n_n).rhsIdx i q 0).val = (q ⟨0, by decide⟩).val :=
  (dot_S512x128_S128x3_S512x3_1_0_0_1_n_n).rhsIdx_val_of_single rfl i q
theorem feat_rhs1 (i : S512x3.Idx) (q : (dot_S512x128_S128x3_S512x3_1_0_0_1_n_n).contr.Idx) : ((dot_S512x128_S128x3_S512x3_1_0_0_1_n_n).rhsIdx i q 1).val = (i 1).val := by
  unfold DotDims.rhsIdx
  rw [dif_neg (show ¬(1 : Fin S128x3.rank) ∈ (dot_S512x128_S128x3_S512x3_1_0_0_1_n_n).rhsBatch by decide),
    dif_pos (show (1 : Fin S128x3.rank) ∈ (dot_S512x128_S128x3_S512x3_1_0_0_1_n_n).rhsNonContracting by decide)]
  rfl

/-- The feature product [512,128] × [128,3] into the zero splat, at (r, n): the sum over the 128 input features. -/
theorem feat_apply (a : FVec Ideal S512x128 .f32) (b : FVec Ideal S128x3 .f32) (r : Fin 512) (n : Fin 3) :
    matmul (F := Ideal) dot_S512x128_S128x3_S512x3_1_0_0_1_n_n none a b (constant S512x3 .f32 0x00000000#32) (ix2 r n)
      = ∑ k : Fin 128, a (ix2 r k) * b (ix2 k n) := by
  refine (Ideal.matmul_constant_zero_apply dot_S512x128_S128x3_S512x3_1_0_0_1_n_n none a b (ix2 r n)).trans ?_
  rw [← Equiv.sum_comp (contrEquiv1 dot_S512x128_S128x3_S512x3_1_0_0_1_n_n 128 rfl rfl).symm]
  refine Finset.sum_congr rfl fun k _ => ?_
  have hk := contrEquiv1_symm_val dot_S512x128_S128x3_S512x3_1_0_0_1_n_n 128 rfl rfl k
  have el : (dot_S512x128_S128x3_S512x3_1_0_0_1_n_n).lhsIdx (ix2 r n) ((contrEquiv1 dot_S512x128_S128x3_S512x3_1_0_0_1_n_n 128 rfl rfl).symm k) = ix2 r k :=
    funext fun ax => Fin.ext (by
      match ax with
      | ⟨0, _⟩ => exact feat_lhs0 _ _
      | ⟨1, _⟩ => exact (feat_lhs1 _ _).trans hk)
  have er : (dot_S512x128_S128x3_S512x3_1_0_0_1_n_n).rhsIdx (ix2 r n) ((contrEquiv1 dot_S512x128_S128x3_S512x3_1_0_0_1_n_n 128 rfl rfl).symm k) = ix2 k n :=
    funext fun ax => Fin.ext (by
      match ax with
      | ⟨0, _⟩ => exact (feat_rhs0 _ _).trans hk
      | ⟨1, _⟩ => exact feat_rhs1 _ _)
  rw [el, er]

/-- The operand indices of the product at a result index and a contraction position, axis by axis. -/
theorem leaf_lhs0 (i : S512x128.Idx) (q : (dot_S512x4_S4x128_S512x128_1_0_0_1_n_n).contr.Idx) : ((dot_S512x4_S4x128_S512x128_1_0_0_1_n_n).lhsIdx i q 0).val = (i 0).val := by
  unfold DotDims.lhsIdx
  rw [dif_neg (show ¬(0 : Fin S512x4.rank) ∈ (dot_S512x4_S4x128_S512x128_1_0_0_1_n_n).lhsBatch by decide),
    dif_pos (show (0 : Fin S512x4.rank) ∈ (dot_S512x4_S4x128_S512x128_1_0_0_1_n_n).lhsNonContracting by decide)]
  rfl
theorem leaf_lhs1 (i : S512x128.Idx) (q : (dot_S512x4_S4x128_S512x128_1_0_0_1_n_n).contr.Idx) : ((dot_S512x4_S4x128_S512x128_1_0_0_1_n_n).lhsIdx i q 1).val = (q ⟨0, by decide⟩).val :=
  (dot_S512x4_S4x128_S512x128_1_0_0_1_n_n).lhsIdx_val_of_single rfl i q
theorem leaf_rhs0 (i : S512x128.Idx) (q : (dot_S512x4_S4x128_S512x128_1_0_0_1_n_n).contr.Idx) : ((dot_S512x4_S4x128_S512x128_1_0_0_1_n_n).rhsIdx i q 0).val = (q ⟨0, by decide⟩).val :=
  (dot_S512x4_S4x128_S512x128_1_0_0_1_n_n).rhsIdx_val_of_single rfl i q
theorem leaf_rhs1 (i : S512x128.Idx) (q : (dot_S512x4_S4x128_S512x128_1_0_0_1_n_n).contr.Idx) : ((dot_S512x4_S4x128_S512x128_1_0_0_1_n_n).rhsIdx i q 1).val = (i 1).val := by
  unfold DotDims.rhsIdx
  rw [dif_neg (show ¬(1 : Fin S4x128.rank) ∈ (dot_S512x4_S4x128_S512x128_1_0_0_1_n_n).rhsBatch by decide),
    dif_pos (show (1 : Fin S4x128.rank) ∈ (dot_S512x4_S4x128_S512x128_1_0_0_1_n_n).rhsNonContracting by decide)]
  rfl

/-- The leaf product [512,4] × [4,128] into the zero splat, at (r, y): the sum over the four leaves. -/
theorem leaf_apply (a : FVec Ideal S512x4 .f32) (b : FVec Ideal S4x128 .f32) (r : Fin 512) (y : Fin 128) :
    matmul (F := Ideal) dot_S512x4_S4x128_S512x128_1_0_0_1_n_n none a b (constant S512x128 .f32 0x00000000#32) (ix2 r y)
      = ∑ k : Fin 4, a (ix2 r k) * b (ix2 k y) := by
  refine (Ideal.matmul_constant_zero_apply dot_S512x4_S4x128_S512x128_1_0_0_1_n_n none a b (ix2 r y)).trans ?_
  rw [← Equiv.sum_comp (contrEquiv1 dot_S512x4_S4x128_S512x128_1_0_0_1_n_n 4 rfl rfl).symm]
  refine Finset.sum_congr rfl fun k _ => ?_
  have hk := contrEquiv1_symm_val dot_S512x4_S4x128_S512x128_1_0_0_1_n_n 4 rfl rfl k
  have el : (dot_S512x4_S4x128_S512x128_1_0_0_1_n_n).lhsIdx (ix2 r y) ((contrEquiv1 dot_S512x4_S4x128_S512x128_1_0_0_1_n_n 4 rfl rfl).symm k) = ix2 r k :=
    funext fun ax => Fin.ext (by
      match ax with
      | ⟨0, _⟩ => exact leaf_lhs0 _ _
      | ⟨1, _⟩ => exact (leaf_lhs1 _ _).trans hk)
  have er : (dot_S512x4_S4x128_S512x128_1_0_0_1_n_n).rhsIdx (ix2 r y) ((contrEquiv1 dot_S512x4_S4x128_S512x128_1_0_0_1_n_n 4 rfl rfl).symm k) = ix2 k y :=
    funext fun ax => Fin.ext (by
      match ax with
      | ⟨0, _⟩ => exact (leaf_rhs0 _ _).trans hk
      | ⟨1, _⟩ => exact leaf_rhs1 _ _)
  rw [el, er]

/-- Four columns laid side by side, read at (r, k): column `k` at row `r`. -/
theorem columns_apply (w0 w1 w2 w3 : FVec Ideal S512x1 .f32) (r : Fin 512) (k : Fin 4) :
    concatenate S512x4 1 [⟨S512x1, w0⟩, ⟨S512x1, w1⟩, ⟨S512x1, w2⟩, ⟨S512x1, w3⟩]
        concatenates_S512x1_S512x1_S512x1_S512x1_S512x4_d1 (ix2 r k)
      = ![w0 (ix2 r (0 : Fin 1)), w1 (ix2 r (0 : Fin 1)), w2 (ix2 r (0 : Fin 1)), w3 (ix2 r (0 : Fin 1))] k := by
  have hi : ∀ (k : Fin 4) (b : Fin S512x1.rank), b.cast (rfl : S512x1.rank = S512x4.rank) ≠ (1 : Fin S512x4.rank) →
      ((ix2 r (0 : Fin 1) : S512x1.Idx) b).val = ((ix2 r k : S512x4.Idx) (b.cast rfl)).val := fun k b hb => by
    match b with
    | ⟨0, _⟩ => rfl
    | ⟨1, _⟩ => exact absurd rfl hb
  match k with
  | ⟨0, _⟩ => exact concatenate_apply_piece (1 : Fin S512x4.rank) _ _ _ 0 (by simp) S512x1 w0 rfl rfl 0 rfl (ix2 r (0 : Fin 1)) (hi _) rfl
  | ⟨1, _⟩ => exact concatenate_apply_piece (1 : Fin S512x4.rank) _ _ _ 1 (by simp) S512x1 w1 rfl rfl 1 rfl (ix2 r (0 : Fin 1)) (hi _) rfl
  | ⟨2, _⟩ => exact concatenate_apply_piece (1 : Fin S512x4.rank) _ _ _ 2 (by simp) S512x1 w2 rfl rfl 2 rfl (ix2 r (0 : Fin 1)) (hi _) rfl
  | ⟨3, _⟩ => exact concatenate_apply_piece (1 : Fin S512x4.rank) _ _ _ 3 (by simp) S512x1 w3 rfl rfl 3 rfl (ix2 r (0 : Fin 1)) (hi _) rfl

/-- Column `n` of the [512,3] decisions cut out as a [512,1] column, read at row `r`. -/
theorem column_apply (c : FVec Ideal S512x3 .f32) (o : Nat) (h : S512x3.Slices ![0, o] S512x1) (r : Fin 512) (n : Fin 3)
    (hn : n.val = o) : extractStridedSlice S512x1 ![0, o] c h (ix2 r (0 : Fin 1)) = c (ix2 r n) :=
  slice2_axis1_apply o c h r (0 : Fin 1) n (by rw [hn]; rfl)

/-- The body's three decisions per row, as a [512,3] array of the loaded blocks: the feature product plus the margin,
    compared with the member's thresholds laid along every row. -/
def decs (v0 : Vec Ideal S1x512x128 .f32) (v2 : Vec Ideal S1x128x3 .f32) (v4 : Vec Ideal S1x1x3 .f32) : FVec Ideal S512x3 .f32 :=
  have v1 : FVec Ideal S512x128 .f32 := shapeCast S512x128 v0 shapeCasts_S1x512x128_S512x128
  have v3 : FVec Ideal S128x3 .f32 := shapeCast S128x3 v2 shapeCasts_S1x128x3_S128x3
  have v5 : FVec Ideal S1x3 .f32 := shapeCast S1x3 v4 shapeCasts_S1x1x3_S1x3
  have v8 : FVec Ideal S512x3 .f32 := matmul dot_S512x128_S128x3_S512x3_1_0_0_1_n_n none v1 v3 (constant S512x3 .f32 0x00000000#32)
  have v10 : FVec Ideal S512x3 .f32 := addf v8 (broadcast S512x3 (Scalar.ofBits .f32 0x3727C5AC#32))
  have v11 : FVec Ideal S512x3 .f32 := broadcastTo S512x3 v5 broadcasts_S1x3_S512x3
  sitofp .f32 (extui 32 (cmpf .olt v10 v11) natLt_1_32)

/-- The feature product of the loaded row block and one-hot block, at (r, n). -/
theorem feats_apply (v0 : Vec Ideal S1x512x128 .f32) (v2 : Vec Ideal S1x128x3 .f32) (r : Fin 512) (n : Fin 3) :
    matmul (F := Ideal) dot_S512x128_S128x3_S512x3_1_0_0_1_n_n none (shapeCast S512x128 v0 shapeCasts_S1x512x128_S512x128 : FVec Ideal S512x128 .f32)
        (shapeCast S128x3 v2 shapeCasts_S1x128x3_S128x3 : FVec Ideal S128x3 .f32) (constant S512x3 .f32 0x00000000#32) (ix2 r n)
      = ∑ d : Fin 128, v0 (ix3 (0 : Fin 1) r d) * v2 (ix3 (0 : Fin 1) d n) := by
  refine (feat_apply _ _ r n).trans (Finset.sum_congr rfl fun d _ => ?_)
  rw [shapeCast_1ab_ab_apply, shapeCast_1ab_ab_apply]

/-- The member's thresholds laid along every row, at (r, n). -/
theorem thr_apply (v4 : Vec Ideal S1x1x3 .f32) (r : Fin 512) (n : Fin 3) :
    broadcastTo S512x3 (shapeCast S1x3 v4 shapeCasts_S1x1x3_S1x3 : FVec Ideal S1x3 .f32) broadcasts_S1x3_S512x3 (ix2 r n)
      = v4 (ix3 (0 : Fin 1) (0 : Fin 1) n) := by
  rw [broadcastTo_1b_ab_apply, shapeCast_1ab_ab_apply]

theorem decs_apply (v0 : Vec Ideal S1x512x128 .f32) (v2 : Vec Ideal S1x128x3 .f32) (v4 : Vec Ideal S1x1x3 .f32)
    (r : Fin 512) (n : Fin 3) : decs v0 v2 v4 (ix2 r n) = Tree.dcs (B := 1) (L := 512) v0 v2 v4 0 r n := by
  unfold Tree.dcs Tree.feat
  rw [← feats_apply v0 v2 r n, ← thr_apply v4 r n]
  rfl

/-- The four leaf weights per row, as a [512,4] array of the decisions: four [512,1] columns laid side by side. -/
def weights (c : FVec Ideal S512x3 .f32) : FVec Ideal S512x4 .f32 :=
  have v15 : FVec Ideal S512x1 .f32 := extractStridedSlice S512x1 ![0, 0] c slices_S512x3_o0_0_S512x1
  have v16 : FVec Ideal S512x1 .f32 := extractStridedSlice S512x1 ![0, 1] c slices_S512x3_o0_1_S512x1
  have v17 : FVec Ideal S512x1 .f32 := extractStridedSlice S512x1 ![0, 2] c slices_S512x3_o0_2_S512x1
  have v18 : FVec Ideal S512x1 .f32 := mulf v15 v16
  have v19 : FVec Ideal S512x1 .f32 := subf v15 v18
  have v20 : FVec Ideal S512x1 .f32 := mulf v15 v17
  have v21 : FVec Ideal S512x1 .f32 := subf v17 v20
  have v22 : FVec Ideal S512x1 .f32 := broadcast S512x1 (Scalar.ofBits .f32 0x3F800000#32)
  have v23 : FVec Ideal S512x1 .f32 := subf v22 v15
  have v24 : FVec Ideal S512x1 .f32 := subf v23 v21
  concatenate S512x4 1 [⟨S512x1, v18⟩, ⟨S512x1, v19⟩, ⟨S512x1, v21⟩, ⟨S512x1, v24⟩] concatenates_S512x1_S512x1_S512x1_S512x1_S512x4_d1

theorem weights_apply (c : FVec Ideal S512x3 .f32) (r : Fin 512) (k : Fin 4) :
    weights c (ix2 r k) = Tree.wK (c (ix2 r (0 : Fin 3))) (c (ix2 r (1 : Fin 3))) (c (ix2 r (2 : Fin 3))) k := by
  unfold weights
  rw [columns_apply]
  simp only [mulf_apply, subf_apply, broadcast_apply,
    column_apply c 0 slices_S512x3_o0_0_S512x1 r (0 : Fin 3) rfl,
    column_apply c 1 slices_S512x3_o0_1_S512x1 r (1 : Fin 3) rfl,
    column_apply c 2 slices_S512x3_o0_2_S512x1 r (2 : Fin 3) rfl]
  rfl

/-- The payload is the leaf product of the weights of the decisions, with a unit batch axis put in front. -/
theorem pay_eq (v0 : Vec Ideal S1x512x128 .f32) (v2 : Vec Ideal S1x128x3 .f32) (v4 : Vec Ideal S1x1x3 .f32)
    (v6 : Vec Ideal S1x4x128 .f32) :
    k0_pay1 (F := Ideal) v0 v2 v4 v6
      = shapeCast S1x512x128 (matmul (F := Ideal) dot_S512x4_S4x128_S512x128_1_0_0_1_n_n none (weights (decs v0 v2 v4))
          (shapeCast S4x128 v6 shapeCasts_S1x4x128_S4x128 : FVec Ideal S4x128 .f32) (constant S512x128 .f32 0x00000000#32))
          shapeCasts_S512x128_S1x512x128 := rfl

/-- The payload at (0, r, y) is the tree's prediction for row `r`, column `y` of the block's one member. -/
theorem pay_apply (v0 : Vec Ideal S1x512x128 .f32) (v2 : Vec Ideal S1x128x3 .f32) (v4 : Vec Ideal S1x1x3 .f32)
    (v6 : Vec Ideal S1x4x128 .f32) (r : Fin 512) (y : Fin 128) :
    k0_pay1 (F := Ideal) v0 v2 v4 v6 (ix3 (0 : Fin 1) r y) = Tree.outK (B := 1) (L := 512) v0 v2 v4 v6 0 r y := by
  rw [pay_eq, shapeCast_ab_1ab_apply, leaf_apply]
  unfold Tree.outK Tree.mixK
  refine Finset.sum_congr rfl fun k _ => ?_
  rw [weights_apply, decs_apply, decs_apply, decs_apply, shapeCast_1ab_ab_apply]

end Cert.KernelIdeal.TreeValue

end
-- ==== Proof.KernelValue.lean ====
/-
  The kernel's result array after the run, as one function of the argument arrays: every grid point (b, l) writes the
  block of rows 512·l … 512·l + 511 of batch member b, and what it writes there is the tree's prediction (`Tree.arrK`)
  of member b's row block, one-hot matrix, thresholds and leaf labels; the 256 blocks tile the [128, 1024, 128] array.
-/
import proofs.«159293_g2000404328929888_pallasbulk_837_2_alg».proof.Proof.Gen.KernelIdeal.Value
import proofs.«159293_g2000404328929888_pallasbulk_837_2_alg».proof.Proof.TreeSpec
import proofs.«159293_g2000404328929888_pallasbulk_837_2_alg».proof.Proof.KernelPayload
import Idealize.ShloMosaic.Lib.Pipeline.Value
import Idealize.ShloMosaic.Lib.StableHlo.Run

set_option maxRecDepth 16384

noncomputable section

namespace Cert.KernelIdeal.TreeValue

open Cert.KernelIdeal Cert.KernelIdeal.Gen Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

theorem hz3 : (![0, 0, 0] : Fin 3 → Nat) = fun _ => 0 := funext fun a => by fin_cases a <;> rfl

/-- The thresholds as the region finds them: the [128, 3] argument with a unit axis put in the middle. -/
theorem V_thr (c : Dev nD) : (V m c main_v0 : S128x1x3.Idx → EReal)
    = broadcastInDim S128x1x3 ![0, 2] bcast_S128x3_S128x1x3_0_2 (m ((c : Thread nD τ).loc main_arg2)) := by
  dsimp only [Gen.V, Gen.hostOps0]
  after_results

/-- The printed index maps over the 256 grid points: point `t` is (b, l) = (t / 2, t % 2); the row block and the
    result block sit at block (b, l, 0), the per-member operands at block (b, 0, 0). -/
theorem idx_facts : ∀ t : Fin cfg0.N,
    win0_4.index t (0 : Fin 3) = t.val / 2 ∧ win0_4.index t (1 : Fin 3) = t.val % 2 ∧ win0_4.index t (2 : Fin 3) = 0
    ∧ win0_0.index t (0 : Fin 3) = t.val / 2 ∧ win0_0.index t (1 : Fin 3) = t.val % 2 ∧ win0_0.index t (2 : Fin 3) = 0
    ∧ win0_1.index t (0 : Fin 3) = t.val / 2 ∧ win0_1.index t (1 : Fin 3) = 0 ∧ win0_1.index t (2 : Fin 3) = 0
    ∧ win0_2.index t (0 : Fin 3) = t.val / 2 ∧ win0_2.index t (1 : Fin 3) = 0 ∧ win0_2.index t (2 : Fin 3) = 0
    ∧ win0_3.index t (0 : Fin 3) = t.val / 2 ∧ win0_3.index t (1 : Fin 3) = 0 ∧ win0_3.index t (2 : Fin 3) = 0 :=
  (by decide +kernel : ∀ t : Fin grid0.N, _)

theorem lt_N (t : Fin cfg0.N) : t.val < 256 := by
  have h : t.val < grid0.N := t.isLt
  exact lt_of_lt_of_eq h N_0

/-- Where point `t`'s result block sits in the array: block row (0, r, y) is array index (t / 2, 512 · (t % 2) + r, y). -/
theorem emb_out (t : Fin cfg0.N) (r : Fin 512) (y : Fin 128) (b : Fin 128) (l : Fin 1024) (hb : b.val = t.val / 2)
    (hl : l.val = t.val % 2 * 512 + r.val) :
    ((cfg0.win 4).blk t).view.emb (ix3 (0 : Fin 1) r y) = ix3 b l y := by
  obtain ⟨e0, e1, e2, -⟩ := idx_facts t
  funext a; apply Fin.ext
  match a with
  | ⟨0, _⟩ => show win0_4.index t (0 : Fin 3) * 1 + 1 * 0 = b.val; omega
  | ⟨1, _⟩ => show win0_4.index t (1 : Fin 3) * 512 + 1 * r.val = l.val; omega
  | ⟨2, _⟩ => show win0_4.index t (2 : Fin 3) * 128 + 1 * y.val = y.val; omega

/-- The row block at point `t` is rows 512 · (t % 2) … of member t / 2. -/
theorem read_x (c : Dev nD) (t : Fin cfg0.N) (r : Fin 512) (d : Fin 128) (b : Fin 128) (l : Fin 1024)
    (hb : b.val = t.val / 2) (hl : l.val = t.val % 2 * 512 + r.val) :
    iblk m c 0 t (ix3 (0 : Fin 1) r d) = V m c main_arg0 (ix3 b l d) := by
  obtain ⟨-, -, -, e0, e1, e2, -⟩ := idx_facts t
  show V m c main_arg0 (((cfg0.win 0).blk t).view.emb (ix3 (0 : Fin 1) r d)) = V m c main_arg0 (ix3 b l d)
  refine congrArg (V m c main_arg0) (funext fun a => Fin.ext ?_)
  match a with
  | ⟨0, _⟩ => show win0_0.index t (0 : Fin 3) * 1 + 1 * 0 = b.val; omega
  | ⟨1, _⟩ => show win0_0.index t (1 : Fin 3) * 512 + 1 * r.val = l.val; omega
  | ⟨2, _⟩ => show win0_0.index t (2 : Fin 3) * 128 + 1 * d.val = d.val; omega

/-- The one-hot block at point `t` is member t / 2's matrix. -/
theorem read_oh (c : Dev nD) (t : Fin cfg0.N) (d : Fin 128) (n : Fin 3) (b : Fin 128) (hb : b.val = t.val / 2) :
    iblk m c 1 t (ix3 (0 : Fin 1) d n) = V m c main_arg1 (ix3 b d n) := by
  obtain ⟨-, -, -, -, -, -, e0, e1, e2, -⟩ := idx_facts t
  show V m c main_arg1 (((cfg0.win 1).blk t).view.emb (ix3 (0 : Fin 1) d n)) = V m c main_arg1 (ix3 b d n)
  refine congrArg (V m c main_arg1) (funext fun a => Fin.ext ?_)
  match a with
  | ⟨0, _⟩ => show win0_1.index t (0 : Fin 3) * 1 + 1 * 0 = b.val; omega
  | ⟨1, _⟩ => show win0_1.index t (1 : Fin 3) * 128 + 1 * d.val = d.val; omega
  | ⟨2, _⟩ => show win0_1.index t (2 : Fin 3) * 3 + 1 * n.val = n.val; omega

/-- The threshold block at point `t` is member t / 2's three thresholds. -/
theorem read_thr (c : Dev nD) (t : Fin cfg0.N) (n : Fin 3) (b : Fin 128) (hb : b.val = t.val / 2) :
    iblk m c 2 t (ix3 (0 : Fin 1) (0 : Fin 1) n) = V m c main_v0 (ix3 b (0 : Fin 1) n) := by
  obtain ⟨-, -, -, -, -, -, -, -, -, e0, e1, e2, -⟩ := idx_facts t
  show V m c main_v0 (((cfg0.win 2).blk t).view.emb (ix3 (0 : Fin 1) (0 : Fin 1) n)) = V m c main_v0 (ix3 b (0 : Fin 1) n)
  refine congrArg (V m c main_v0) (funext fun a => Fin.ext ?_)
  match a with
  | ⟨0, _⟩ => show win0_2.index t (0 : Fin 3) * 1 + 1 * 0 = b.val; omega
  | ⟨1, _⟩ => show win0_2.index t (1 : Fin 3) * 1 + 1 * 0 = 0; omega
  | ⟨2, _⟩ => show win0_2.index t (2 : Fin 3) * 3 + 1 * n.val = n.val; omega

/-- The leaf block at point `t` is member t / 2's four leaf rows. -/
theorem read_leaf (c : Dev nD) (t : Fin cfg0.N) (k : Fin 4) (y : Fin 128) (b : Fin 128) (hb : b.val = t.val / 2) :
    iblk m c 3 t (ix3 (0 : Fin 1) k y) = V m c main_arg3 (ix3 b k y) := by
  obtain ⟨-, -, -, -, -, -, -, -, -, -, -, -, e0, e1, e2⟩ := idx_facts t
  show V m c main_arg3 (((cfg0.win 3).blk t).view.emb (ix3 (0 : Fin 1) k y)) = V m c main_arg3 (ix3 b k y)
  refine congrArg (V m c main_arg3) (funext fun a => Fin.ext ?_)
  match a with
  | ⟨0, _⟩ => show win0_3.index t (0 : Fin 3) * 1 + 1 * 0 = b.val; omega
  | ⟨1, _⟩ => show win0_3.index t (1 : Fin 3) * 4 + 1 * k.val = k.val; omega
  | ⟨2, _⟩ => show win0_3.index t (2 : Fin 3) * 128 + 1 * y.val = y.val; omega

/-- WHAT POINT `t` WRITES BACK is block `t` of the tree's prediction of the arrays as the region finds them. -/
theorem flushed_eq (c : Dev nD) (t : Fin cfg0.N) :
    (dats m 0 c).flushed 4 t = ((cfg0.win 4).blk t).view.read (Elt Ideal)
      (Tree.arrK (B := 128) (L := 1024) (V m c main_arg0) (V m c main_arg1) (V m c main_v0) (V m c main_arg3)) := by
  rw [Value.flushed4]
  unfold out0_4
  rw [View.canon_unit_zero hz3]
  simp only [View.ld_unit_zero (S := S1x512x128) hz3, View.ld_unit_zero (S := S1x128x3) hz3,
    View.ld_unit_zero (S := S1x1x3) hz3, View.ld_unit_zero (S := S1x4x128) hz3]
  funext j
  obtain ⟨u, r, y, rfl⟩ : ∃ (u : Fin 1) (r : Fin 512) (y : Fin 128), j = ix3 u r y := ⟨j 0, j 1, j 2, eq_ix3 j⟩
  obtain rfl : u = 0 := Subsingleton.elim _ _
  have ht := lt_N t
  have hb : t.val / 2 < 128 := by omega
  have hl : t.val % 2 * 512 + r.val < 1024 := by have := r.isLt; omega
  show k0_pay1 (F := Ideal) (iblk m c 0 t) (iblk m c 1 t) (iblk m c 2 t) (iblk m c 3 t) (ix3 (0 : Fin 1) r y)
    = Tree.arrK (B := 128) (L := 1024) (V m c main_arg0) (V m c main_arg1) (V m c main_v0) (V m c main_arg3)
        (((cfg0.win 4).blk t).view.emb (ix3 (0 : Fin 1) r y))
  rw [emb_out t r y ⟨t.val / 2, hb⟩ ⟨t.val % 2 * 512 + r.val, hl⟩ rfl rfl]
  refine (pay_apply _ _ _ _ r y).trans ?_
  exact Tree.outK_congr y (fun d => read_x m c t r d _ _ rfl rfl) (fun d n => read_oh m c t d n _ rfl)
    (fun n => read_thr m c t n _ rfl) (fun k => read_leaf m c t k y _ rfl)

/-- An index of the array is in point `t`'s block iff each coordinate is in the block's range on its axis. -/
theorem mem_blk (t : Fin cfg0.N) (i : S128x1024x128.Idx) :
    i ∈ ((cfg0.win 4).blk t).view.set ↔ ∀ a : Fin 3, win0_4.index t a * S1x512x128.size a ≤ (i a).val
      ∧ (i a).val < win0_4.index t a * S1x512x128.size a + S1x512x128.size a := by
  show i ∈ ((View.whole main_v1).slice (win0_4.rect t)).set ↔ _
  rw [View.set_slice_whole, Rect.mem_set_unit]
  exact Iff.rfl

/-- The blocks tile the array: index (b, l, y) is in the block of the point 2 · b + l / 512. -/
theorem cover (i : S128x1024x128.Idx) :
    ∃ t : Fin cfg0.N, (cfg0.win 4).flush t = true ∧ i ∈ ((cfg0.win 4).blk t).view.set := by
  have h0 : (i 0).val < 128 := (i 0).isLt
  have h1 : (i 1).val < 1024 := (i 1).isLt
  have h2 : (i 2).val < 128 := (i 2).isLt
  have hN : grid0.N = 256 := N_0
  have htv : (i 0).val * 2 + (i 1).val / 512 < grid0.N := by rw [hN]; omega
  refine ⟨⟨(i 0).val * 2 + (i 1).val / 512, htv⟩, flush0_4 _, ?_⟩
  rw [mem_blk]
  obtain ⟨e0, e1, e2, -⟩ := idx_facts ⟨(i 0).val * 2 + (i 1).val / 512, htv⟩
  have hv : (⟨(i 0).val * 2 + (i 1).val / 512, htv⟩ : Fin cfg0.N).val = (i 0).val * 2 + (i 1).val / 512 := rfl
  rw [hv] at e0 e1
  intro a
  match a with
  | ⟨0, _⟩ =>
    show win0_4.index _ (0 : Fin 3) * 1 ≤ (i 0).val ∧ (i 0).val < win0_4.index _ (0 : Fin 3) * 1 + 1
    omega
  | ⟨1, _⟩ =>
    show win0_4.index _ (1 : Fin 3) * 512 ≤ (i 1).val ∧ (i 1).val < win0_4.index _ (1 : Fin 3) * 512 + 512
    omega
  | ⟨2, _⟩ =>
    show win0_4.index _ (2 : Fin 3) * 128 ≤ (i 2).val ∧ (i 2).val < win0_4.index _ (2 : Fin 3) * 128 + 128
    omega

/-- THE ARRAY after the run: the tree's prediction of the argument arrays, the thresholds with their unit axis. -/
theorem final (c : Dev nD) : (dats m 0 c).arrAt 4 cfg0.N
    = Tree.arrK (B := 128) (L := 1024) (m ((c : Thread nD τ).loc main_arg0)) (m ((c : Thread nD τ).loc main_arg1))
        (broadcastInDim S128x1x3 ![0, 2] bcast_S128x3_S128x1x3_0_2 (m ((c : Thread nD τ).loc main_arg2)))
        (m ((c : Thread nD τ).loc main_arg3)) := by
  rw [← V_main_arg0 m c, ← V_main_arg1 m c, ← V_main_arg3 m c, ← V_thr m c]
  exact (dats m 0 c).arrAt_eq_of_cover 4 _ (fun t _ => flushed_eq m c t) cover

/-- The kernel's run: its result array ends at the tree's prediction of the argument arrays, which end unchanged. -/
theorem run : θ_run defs (onTc (τ := τ) (main (F := Ideal))) ⟨m, fun _ => 0, ρ⟩ fun r => ∀ c : Dev nD,
      r.2.mem ((c : Thread nD τ).loc main_v1)
        = Tree.arrK (B := 128) (L := 1024) (m ((c : Thread nD τ).loc main_arg0)) (m ((c : Thread nD τ).loc main_arg1))
            (broadcastInDim S128x1x3 ![0, 2] bcast_S128x3_S128x1x3_0_2 (m ((c : Thread nD τ).loc main_arg2)))
            (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.TreeValue

end
-- ==== Proof.RefPayload.lean ====
/-
  The reference kernel's body, read at one index of the block it stores: for member `bb` of the ten in the block,
  row `r` and column `y`, the stored value is the tree's prediction (`Tree.outR`) of the four loaded blocks.
  The features are a batched matrix product (each member's rows against that member's one-hot columns), the
  decisions a comparison against the member's thresholds spread over the rows, the four leaf weights columns spread
  over the 128 output columns, each multiplied by a leaf row spread over the 512 rows, and the four products added
  left to right.
-/
import proofs.«159293_g2000404328929888_pallasbulk_837_2_alg».proof.Proof.Gen.ReferenceIdeal.Skeleton
import proofs.«159293_g2000404328929888_pallasbulk_837_2_alg».proof.Proof.TreeSpec
import Idealize.ShloMosaic.Lib.Pipeline.Value
import Idealize.ShloMosaic.Lib.ValueLayout

noncomputable section

namespace Cert.ReferenceIdeal.RefValue

open Cert.ReferenceIdeal Cert.ReferenceIdeal.Gen Idealize.ShloMosaic Idealize.ShloMosaic.ValueIdx

/-! ## The batched product -/

/-- The operand indices of the batched product at a result index and a contraction position, axis by axis: the
    member axis of either operand reads the result's member, the row axis of the left its row, the column axis of the
    right its column, and the contracted axis the contraction position. -/
theorem feat_lhs0 (i : S10x512x3.Idx) (q : (dot_S10x512x128_S10x128x3_S10x512x3_2_1_1_2_0_0).contr.Idx) : ((dot_S10x512x128_S10x128x3_S10x512x3_2_1_1_2_0_0).lhsIdx i q 0).val = (i 0).val := by
  unfold DotDims.lhsIdx
  rw [dif_pos (show (0 : Fin S10x512x128.rank) ∈ (dot_S10x512x128_S10x128x3_S10x512x3_2_1_1_2_0_0).lhsBatch by decide)]
  rfl
theorem feat_lhs1 (i : S10x512x3.Idx) (q : (dot_S10x512x128_S10x128x3_S10x512x3_2_1_1_2_0_0).contr.Idx) : ((dot_S10x512x128_S10x128x3_S10x512x3_2_1_1_2_0_0).lhsIdx i q 1).val = (i 1).val := by
  unfold DotDims.lhsIdx
  rw [dif_neg (show ¬(1 : Fin S10x512x128.rank) ∈ (dot_S10x512x128_S10x128x3_S10x512x3_2_1_1_2_0_0).lhsBatch by decide),
    dif_pos (show (1 : Fin S10x512x128.rank) ∈ (dot_S10x512x128_S10x128x3_S10x512x3_2_1_1_2_0_0).lhsNonContracting by decide)]
  rfl
theorem feat_lhs2 (i : S10x512x3.Idx) (q : (dot_S10x512x128_S10x128x3_S10x512x3_2_1_1_2_0_0).contr.Idx) : ((dot_S10x512x128_S10x128x3_S10x512x3_2_1_1_2_0_0).lhsIdx i q 2).val = (q ⟨0, by decide⟩).val :=
  (dot_S10x512x128_S10x128x3_S10x512x3_2_1_1_2_0_0).lhsIdx_val_of_single rfl i q
theorem feat_rhs0 (i : S10x512x3.Idx) (q : (dot_S10x512x128_S10x128x3_S10x512x3_2_1_1_2_0_0).contr.Idx) : ((dot_S10x512x128_S10x128x3_S10x512x3_2_1_1_2_0_0).rhsIdx i q 0).val = (i 0).val := by
  unfold DotDims.rhsIdx
  rw [dif_pos (show (0 : Fin S10x128x3.rank) ∈ (dot_S10x512x128_S10x128x3_S10x512x3_2_1_1_2_0_0).rhsBatch by decide)]
  rfl
theorem feat_rhs1 (i : S10x512x3.Idx) (q : (dot_S10x512x128_S10x128x3_S10x512x3_2_1_1_2_0_0).contr.Idx) : ((dot_S10x512x128_S10x128x3_S10x512x3_2_1_1_2_0_0).rhsIdx i q 1).val = (q ⟨0, by decide⟩).val :=
  (dot_S10x512x128_S10x128x3_S10x512x3_2_1_1_2_0_0).rhsIdx_val_of_single rfl i q
theorem feat_rhs2 (i : S10x512x3.Idx) (q : (dot_S10x512x128_S10x128x3_S10x512x3_2_1_1_2_0_0).contr.Idx) : ((dot_S10x512x128_S10x128x3_S10x512x3_2_1_1_2_0_0).rhsIdx i q 2).val = (i 2).val := by
  unfold DotDims.rhsIdx
  rw [dif_neg (show ¬(2 : Fin S10x128x3.rank) ∈ (dot_S10x512x128_S10x128x3_S10x512x3_2_1_1_2_0_0).rhsBatch by decide),
    dif_pos (show (2 : Fin S10x128x3.rank) ∈ (dot_S10x512x128_S10x128x3_S10x512x3_2_1_1_2_0_0).rhsNonContracting by decide)]
  rfl

/-- The batched product [10,512,128] × [10,128,3] into the zero splat, at (bb, r, n): member `bb`'s row `r` against
    its column `n`, summed over the 128 input features. -/
theorem feat_apply (a : FVec Ideal S10x512x128 .f32) (b : FVec Ideal S10x128x3 .f32) (bb : Fin 10) (r : Fin 512) (n : Fin 3) :
    matmul (F := Ideal) dot_S10x512x128_S10x128x3_S10x512x3_2_1_1_2_0_0 none a b (constant S10x512x3 .f32 0x00000000#32) (ix3 bb r n)
      = ∑ d : Fin 128, a (ix3 bb r d) * b (ix3 bb d n) := by
  refine (Ideal.matmul_constant_zero_apply dot_S10x512x128_S10x128x3_S10x512x3_2_1_1_2_0_0 none a b (ix3 bb r n)).trans ?_
  rw [← Equiv.sum_comp (contrEquiv1 dot_S10x512x128_S10x128x3_S10x512x3_2_1_1_2_0_0 128 rfl rfl).symm]
  refine Finset.sum_congr rfl fun k _ => ?_
  have hk := contrEquiv1_symm_val dot_S10x512x128_S10x128x3_S10x512x3_2_1_1_2_0_0 128 rfl rfl k
  have el : (dot_S10x512x128_S10x128x3_S10x512x3_2_1_1_2_0_0).lhsIdx (ix3 bb r n) ((contrEquiv1 dot_S10x512x128_S10x128x3_S10x512x3_2_1_1_2_0_0 128 rfl rfl).symm k) = ix3 bb r k :=
    funext fun ax => Fin.ext (by
      match ax with
      | ⟨0, _⟩ => exact feat_lhs0 _ _
      | ⟨1, _⟩ => exact feat_lhs1 _ _
      | ⟨2, _⟩ => exact (feat_lhs2 _ _).trans hk)
  have er : (dot_S10x512x128_S10x128x3_S10x512x3_2_1_1_2_0_0).rhsIdx (ix3 bb r n) ((contrEquiv1 dot_S10x512x128_S10x128x3_S10x512x3_2_1_1_2_0_0 128 rfl rfl).symm k) = ix3 bb k n :=
    funext fun ax => Fin.ext (by
      match ax with
      | ⟨0, _⟩ => exact feat_rhs0 _ _
      | ⟨1, _⟩ => exact (feat_rhs1 _ _).trans hk
      | ⟨2, _⟩ => exact feat_rhs2 _ _)
  rw [el, er]

/-! ## Spreading and cutting -/

section Layout
variable {α : Type}

/-- A member's one row of thresholds spread over the 512 rows: every row reads it. -/
theorem thr_spread (x : S10x1x3.Idx → α) (h : S10x1x3.Broadcasts S10x512x3) (bb : Fin 10) (r : Fin 512) (n : Fin 3) :
    broadcastTo S10x512x3 x h (ix3 bb r n) = x (ix3 bb (0 : Fin 1) n) :=
  broadcastTo_apply x h (ix3 bb r n) (ix3 bb (0 : Fin 1) n) fun a => by
    match a with
    | ⟨0, _⟩ => rfl
    | ⟨1, _⟩ => rfl
    | ⟨2, _⟩ => rfl

/-- A column (one value per member and row) spread over the 128 output columns: every column reads it. -/
theorem col_spread (x : S10x512x1.Idx → α) (h : S10x512x1.Broadcasts S10x512x128) (bb : Fin 10) (r : Fin 512) (y : Fin 128) :
    broadcastTo S10x512x128 x h (ix3 bb r y) = x (ix3 bb r (0 : Fin 1)) :=
  broadcastTo_apply x h (ix3 bb r y) (ix3 bb r (0 : Fin 1)) fun a => by
    match a with
    | ⟨0, _⟩ => rfl
    | ⟨1, _⟩ => rfl
    | ⟨2, _⟩ => rfl

/-- A member's one leaf row spread over the 512 rows: every row reads it. -/
theorem row_spread (x : S10x1x128.Idx → α) (h : S10x1x128.Broadcasts S10x512x128) (bb : Fin 10) (r : Fin 512) (y : Fin 128) :
    broadcastTo S10x512x128 x h (ix3 bb r y) = x (ix3 bb (0 : Fin 1) y) :=
  broadcastTo_apply x h (ix3 bb r y) (ix3 bb (0 : Fin 1) y) fun a => by
    match a with
    | ⟨0, _⟩ => rfl
    | ⟨1, _⟩ => rfl
    | ⟨2, _⟩ => rfl

/-- Column `n` of the three decisions cut out as a one-wide column reads decision `n`. -/
theorem col_cut (n : Fin 3) (x : S10x512x3.Idx → α) (h : S10x512x3.Slices ![0, 0, n.val] S10x512x1) (bb : Fin 10) (r : Fin 512) :
    extractStridedSlice S10x512x1 ![0, 0, n.val] x h (ix3 bb r (0 : Fin 1)) = x (ix3 bb r n) :=
  extractStridedSlice_apply ![0, 0, n.val] x h (ix3 bb r (0 : Fin 1)) (ix3 bb r n) fun a => by
    match a with
    | ⟨0, _⟩ => show bb.val = 0 + bb.val; omega
    | ⟨1, _⟩ => show r.val = 0 + r.val; omega
    | ⟨2, _⟩ => show n.val = n.val + 0; omega

/-- Leaf row `k` of the four cut out as a one-high row reads leaf `k`. -/
theorem row_cut (k : Fin 4) (x : S10x4x128.Idx → α) (h : S10x4x128.Slices ![0, k.val, 0] S10x1x128) (bb : Fin 10) (y : Fin 128) :
    extractStridedSlice S10x1x128 ![0, k.val, 0] x h (ix3 bb (0 : Fin 1) y) = x (ix3 bb k y) :=
  extractStridedSlice_apply ![0, k.val, 0] x h (ix3 bb (0 : Fin 1) y) (ix3 bb k y) fun a => by
    match a with
    | ⟨0, _⟩ => show bb.val = 0 + bb.val; omega
    | ⟨1, _⟩ => show k.val = k.val + 0; omega
    | ⟨2, _⟩ => show y.val = 0 + y.val; omega

end Layout

section Cuts
variable {α : Type}

/-- The three decision columns and the four leaf rows, at the offsets the body cuts them at. -/
theorem col_cut0 (x : S10x512x3.Idx → α) (h : S10x512x3.Slices ![0, 0, 0] S10x512x1) (bb : Fin 10) (r : Fin 512) :
    extractStridedSlice S10x512x1 ![0, 0, 0] x h (ix3 bb r (0 : Fin 1)) = x (ix3 bb r (0 : Fin 3)) := col_cut 0 x h bb r
theorem col_cut1 (x : S10x512x3.Idx → α) (h : S10x512x3.Slices ![0, 0, 1] S10x512x1) (bb : Fin 10) (r : Fin 512) :
    extractStridedSlice S10x512x1 ![0, 0, 1] x h (ix3 bb r (0 : Fin 1)) = x (ix3 bb r (1 : Fin 3)) := col_cut 1 x h bb r
theorem col_cut2 (x : S10x512x3.Idx → α) (h : S10x512x3.Slices ![0, 0, 2] S10x512x1) (bb : Fin 10) (r : Fin 512) :
    extractStridedSlice S10x512x1 ![0, 0, 2] x h (ix3 bb r (0 : Fin 1)) = x (ix3 bb r (2 : Fin 3)) := col_cut 2 x h bb r
theorem row_cut0 (x : S10x4x128.Idx → α) (h : S10x4x128.Slices ![0, 0, 0] S10x1x128) (bb : Fin 10) (y : Fin 128) :
    extractStridedSlice S10x1x128 ![0, 0, 0] x h (ix3 bb (0 : Fin 1) y) = x (ix3 bb (0 : Fin 4) y) := row_cut 0 x h bb y
theorem row_cut1 (x : S10x4x128.Idx → α) (h : S10x4x128.Slices ![0, 1, 0] S10x1x128) (bb : Fin 10) (y : Fin 128) :
    extractStridedSlice S10x1x128 ![0, 1, 0] x h (ix3 bb (0 : Fin 1) y) = x (ix3 bb (1 : Fin 4) y) := row_cut 1 x h bb y
theorem row_cut2 (x : S10x4x128.Idx → α) (h : S10x4x128.Slices ![0, 2, 0] S10x1x128) (bb : Fin 10) (y : Fin 128) :
    extractStridedSlice S10x1x128 ![0, 2, 0] x h (ix3 bb (0 : Fin 1) y) = x (ix3 bb (2 : Fin 4) y) := row_cut 2 x h bb y
theorem row_cut3 (x : S10x4x128.Idx → α) (h : S10x4x128.Slices ![0, 3, 0] S10x1x128) (bb : Fin 10) (y : Fin 128) :
    extractStridedSlice S10x1x128 ![0, 3, 0] x h (ix3 bb (0 : Fin 1) y) = x (ix3 bb (3 : Fin 4) y) := row_cut 3 x h bb y

end Cuts

/-! ## The body at an index -/

/-- The stored value at (bb, r, y): the four identity casts drop, each spread and cut reads one index of its operand,
    the batched product is the feature sum, and what is left is the left-to-right mixture of the four leaves under
    the three decisions, term for term. -/
theorem pay_apply (v0 : Vec Ideal S10x512x128 .f32) (v2 : Vec Ideal S10x128x3 .f32) (v4 : Vec Ideal S10x1x3 .f32)
    (v6 : Vec Ideal S10x4x128 .f32) (bb : Fin 10) (r : Fin 512) (y : Fin 128) :
    k0_pay1 (F := Ideal) v0 v2 v4 v6 (ix3 bb r y) = Tree.outR (B := 10) (L := 512) v0 v2 v4 v6 bb r y := by
  unfold k0_pay1
  simp only [addf_apply, mulf_apply, subf_apply, col_spread, row_spread, thr_spread, col_cut0, col_cut1, col_cut2,
    row_cut0, row_cut1, row_cut2, row_cut3, sitofp_apply, extui_apply, cmpf_apply, broadcast_apply, shapeCast_self, feat_apply]
  rfl

end Cert.ReferenceIdeal.RefValue

end
-- ==== Proof.RefValue.lean ====
/-
  What the reference program leaves in its result array: the tree's prediction (Tree.arrR) of the four argument
  arrays, the thresholds laid out as a [128, 1, 3] array.

  The program pads the batch axis of its four operands from 128 to 130 members, evaluates the tree block by block
  (13 blocks of 10 members, 2 blocks of 512 rows) into a [130, 1024, 128] array, and cuts the first 128 members out.
  Each block's stored value is the prediction of the four loaded blocks; the prediction at (b, l, y) reads only member
  b's row l, one-hot matrix, thresholds and leaf column y, so a block's value is the whole padded arrays' prediction
  at the block's place, the blocks tile the array, and a member below 128 of the padded arrays is the argument's.
-/
import proofs.«159293_g2000404328929888_pallasbulk_837_2_alg».proof.Proof.Gen.ReferenceIdeal.Frame
import proofs.«159293_g2000404328929888_pallasbulk_837_2_alg».proof.Proof.TreeSpec
import proofs.«159293_g2000404328929888_pallasbulk_837_2_alg».proof.Proof.RefPayload
import Idealize.ShloMosaic.Lib.Pipeline.Value
import Idealize.ShloMosaic.Lib.ValueLayout
import Idealize.ShloMosaic.Lib.KernelVsHost
import Idealize.ShloMosaic.Lib.StableHlo.Run

noncomputable section

namespace Cert.ReferenceIdeal.RefValue

open Cert.ReferenceIdeal Cert.ReferenceIdeal.Gen Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! ## The blocks -/

theorem hz : (![0, 0, 0] : Fin 3 → Nat) = fun _ => 0 := funext fun a => by fin_cases a <;> rfl

/-- The printed index maps, decided over the 26 grid points: every operand's block moves with the result's along the
    batch axis, the rows' block along the row axis too, and nothing moves along the other axes. -/
theorem idx_facts : ∀ t : Fin cfg0.N,
    win0_0.index t (0 : Fin 3) = win0_4.index t (0 : Fin 3) ∧ win0_0.index t (1 : Fin 3) = win0_4.index t (1 : Fin 3)
    ∧ win0_0.index t (2 : Fin 3) = 0
    ∧ win0_1.index t (0 : Fin 3) = win0_4.index t (0 : Fin 3) ∧ win0_1.index t (1 : Fin 3) = 0 ∧ win0_1.index t (2 : Fin 3) = 0
    ∧ win0_2.index t (0 : Fin 3) = win0_4.index t (0 : Fin 3) ∧ win0_2.index t (1 : Fin 3) = 0 ∧ win0_2.index t (2 : Fin 3) = 0
    ∧ win0_3.index t (0 : Fin 3) = win0_4.index t (0 : Fin 3) ∧ win0_3.index t (1 : Fin 3) = 0 ∧ win0_3.index t (2 : Fin 3) = 0
    ∧ win0_4.index t (0 : Fin 3) ≤ 12 ∧ win0_4.index t (1 : Fin 3) ≤ 1 ∧ win0_4.index t (2 : Fin 3) = 0 :=
  (by decide +kernel : ∀ t : Fin grid0.N, _)

/-- Every block of the result array is some point's. -/
theorem idx_onto : ∀ (q0 : Fin 13) (q1 : Fin 2), ∃ t : Fin cfg0.N, win0_4.index t = ![q0.val, q1.val, 0] :=
  (by decide +kernel : ∀ (q0 : Fin 13) (q1 : Fin 2), ∃ t : Fin grid0.N, win0_4.index t = ![q0.val, q1.val, 0])

/-- An element of the rows' block at point t is the padded rows array at the block's place. -/
theorem blk0_read (c : Dev nD) (t : Fin cfg0.N) (z : S10x512x128.Idx) (k : S130x1024x128.Idx)
    (h0 : (k 0).val = win0_0.index t (0 : Fin 3) * 10 + (z 0).val)
    (h1 : (k 1).val = win0_0.index t (1 : Fin 3) * 512 + (z 1).val)
    (h2 : (k 2).val = win0_0.index t (2 : Fin 3) * 128 + (z 2).val) :
    (iblk m c 0 t : Vec Ideal S10x512x128 .f32) z = (V m c main_v1 : S130x1024x128.Idx → EReal) k := by
  show (V m c main_v1 : S130x1024x128.Idx → EReal) (((cfg0.win 0).blk t).view.emb z) = V m c main_v1 k
  refine congrArg (V m c main_v1 : S130x1024x128.Idx → EReal) (funext fun a => Fin.ext ?_)
  match a with
  | ⟨0, _⟩ => show win0_0.index t (0 : Fin 3) * 10 + 1 * (z 0).val = (k 0).val; omega
  | ⟨1, _⟩ => show win0_0.index t (1 : Fin 3) * 512 + 1 * (z 1).val = (k 1).val; omega
  | ⟨2, _⟩ => show win0_0.index t (2 : Fin 3) * 128 + 1 * (z 2).val = (k 2).val; omega

/-- An element of the one-hot block at point t is the padded one-hot array at the block's place. -/
theorem blk1_read (c : Dev nD) (t : Fin cfg0.N) (z : S10x128x3.Idx) (k : S130x128x3.Idx)
    (h0 : (k 0).val = win0_1.index t (0 : Fin 3) * 10 + (z 0).val)
    (h1 : (k 1).val = win0_1.index t (1 : Fin 3) * 128 + (z 1).val)
    (h2 : (k 2).val = win0_1.index t (2 : Fin 3) * 3 + (z 2).val) :
    (iblk m c 1 t : Vec Ideal S10x128x3 .f32) z = (V m c main_v2 : S130x128x3.Idx → EReal) k := by
  show (V m c main_v2 : S130x128x3.Idx → EReal) (((cfg0.win 1).blk t).view.emb z) = V m c main_v2 k
  refine congrArg (V m c main_v2 : S130x128x3.Idx → EReal) (funext fun a => Fin.ext ?_)
  match a with
  | ⟨0, _⟩ => show win0_1.index t (0 : Fin 3) * 10 + 1 * (z 0).val = (k 0).val; omega
  | ⟨1, _⟩ => show win0_1.index t (1 : Fin 3) * 128 + 1 * (z 1).val = (k 1).val; omega
  | ⟨2, _⟩ => show win0_1.index t (2 : Fin 3) * 3 + 1 * (z 2).val = (k 2).val; omega

/-- An element of the thresholds' block at point t is the padded thresholds array at the block's place. -/
theorem blk2_read (c : Dev nD) (t : Fin cfg0.N) (z : S10x1x3.Idx) (k : S130x1x3.Idx)
    (h0 : (k 0).val = win0_2.index t (0 : Fin 3) * 10 + (z 0).val)
    (h1 : (k 1).val = win0_2.index t (1 : Fin 3) * 1 + (z 1).val)
    (h2 : (k 2).val = win0_2.index t (2 : Fin 3) * 3 + (z 2).val) :
    (iblk m c 2 t : Vec Ideal S10x1x3 .f32) z = (V m c main_v3 : S130x1x3.Idx → EReal) k := by
  show (V m c main_v3 : S130x1x3.Idx → EReal) (((cfg0.win 2).blk t).view.emb z) = V m c main_v3 k
  refine congrArg (V m c main_v3 : S130x1x3.Idx → EReal) (funext fun a => Fin.ext ?_)
  match a with
  | ⟨0, _⟩ => show win0_2.index t (0 : Fin 3) * 10 + 1 * (z 0).val = (k 0).val; omega
  | ⟨1, _⟩ => show win0_2.index t (1 : Fin 3) * 1 + 1 * (z 1).val = (k 1).val; omega
  | ⟨2, _⟩ => show win0_2.index t (2 : Fin 3) * 3 + 1 * (z 2).val = (k 2).val; omega

/-- An element of the leaves' block at point t is the padded leaves array at the block's place. -/
theorem blk3_read (c : Dev nD) (t : Fin cfg0.N) (z : S10x4x128.Idx) (k : S130x4x128.Idx)
    (h0 : (k 0).val = win0_3.index t (0 : Fin 3) * 10 + (z 0).val)
    (h1 : (k 1).val = win0_3.index t (1 : Fin 3) * 4 + (z 1).val)
    (h2 : (k 2).val = win0_3.index t (2 : Fin 3) * 128 + (z 2).val) :
    (iblk m c 3 t : Vec Ideal S10x4x128 .f32) z = (V m c main_v4 : S130x4x128.Idx → EReal) k := by
  show (V m c main_v4 : S130x4x128.Idx → EReal) (((cfg0.win 3).blk t).view.emb z) = V m c main_v4 k
  refine congrArg (V m c main_v4 : S130x4x128.Idx → EReal) (funext fun a => Fin.ext ?_)
  match a with
  | ⟨0, _⟩ => show win0_3.index t (0 : Fin 3) * 10 + 1 * (z 0).val = (k 0).val; omega
  | ⟨1, _⟩ => show win0_3.index t (1 : Fin 3) * 4 + 1 * (z 1).val = (k 1).val; omega
  | ⟨2, _⟩ => show win0_3.index t (2 : Fin 3) * 128 + 1 * (z 2).val = (k 2).val; omega

/-! ## What a point writes back -/

/-- The stored value at one index of the block is the padded arrays' prediction at the block's place in the array. -/
theorem flushed_pt (c : Dev nD) (t : Fin cfg0.N) (y : S10x512x128.Idx) :
    k0_pay1 (F := Ideal) (iblk m c 0 t) (iblk m c 1 t) (iblk m c 2 t) (iblk m c 3 t) y
      = Tree.arrR (B := 130) (L := 1024) (V m c main_v1) (V m c main_v2) (V m c main_v3) (V m c main_v4)
          (((cfg0.win 4).blk t).view.emb y) := by
  obtain ⟨bb, r, yy, rfl⟩ : ∃ (bb : Fin 10) (r : Fin 512) (yy : Fin 128), y = ix3 bb r yy := ⟨y 0, y 1, y 2, eq_ix3 y⟩
  obtain ⟨e00, e01, e02, e10, e11, e12, e20, e21, e22, e30, e31, e32, b0, b1, e42⟩ := idx_facts t
  have hbb : bb.val < 10 := bb.isLt
  have hr : r.val < 512 := r.isLt
  obtain ⟨i0, hi0⟩ : ∃ i0 : Fin 130, i0.val = win0_4.index t (0 : Fin 3) * 10 + bb.val := ⟨⟨_, by omega⟩, rfl⟩
  obtain ⟨i1, hi1⟩ : ∃ i1 : Fin 1024, i1.val = win0_4.index t (1 : Fin 3) * 512 + r.val := ⟨⟨_, by omega⟩, rfl⟩
  have hemb : ((cfg0.win 4).blk t).view.emb (ix3 bb r yy) = ix3 i0 i1 yy := by
    funext a; apply Fin.ext
    match a with
    | ⟨0, _⟩ => show win0_4.index t (0 : Fin 3) * 10 + 1 * bb.val = i0.val; omega
    | ⟨1, _⟩ => show win0_4.index t (1 : Fin 3) * 512 + 1 * r.val = i1.val; omega
    | ⟨2, _⟩ => show win0_4.index t (2 : Fin 3) * 128 + 1 * yy.val = yy.val; omega
  rw [hemb]
  show _ = Tree.outR (B := 130) (L := 1024) (V m c main_v1) (V m c main_v2) (V m c main_v3) (V m c main_v4) i0 i1 yy
  refine (pay_apply (iblk m c 0 t) (iblk m c 1 t) (iblk m c 2 t) (iblk m c 3 t) bb r yy).trans
    (Tree.outR_congr yy ?_ ?_ ?_ ?_)
  · intro d
    exact blk0_read m c t (ix3 bb r d) (ix3 i0 i1 d)
      (by show i0.val = win0_0.index t (0 : Fin 3) * 10 + bb.val; omega)
      (by show i1.val = win0_0.index t (1 : Fin 3) * 512 + r.val; omega)
      (by show d.val = win0_0.index t (2 : Fin 3) * 128 + d.val; omega)
  · intro d n
    exact blk1_read m c t (ix3 bb d n) (ix3 i0 d n)
      (by show i0.val = win0_1.index t (0 : Fin 3) * 10 + bb.val; omega)
      (by show d.val = win0_1.index t (1 : Fin 3) * 128 + d.val; omega)
      (by show n.val = win0_1.index t (2 : Fin 3) * 3 + n.val; omega)
  · intro n
    exact blk2_read m c t (ix3 bb (0 : Fin 1) n) (ix3 i0 (0 : Fin 1) n)
      (by show i0.val = win0_2.index t (0 : Fin 3) * 10 + bb.val; omega)
      (by show (0 : Fin 1).val = win0_2.index t (1 : Fin 3) * 1 + (0 : Fin 1).val; omega)
      (by show n.val = win0_2.index t (2 : Fin 3) * 3 + n.val; omega)
  · intro k
    exact blk3_read m c t (ix3 bb k yy) (ix3 i0 k yy)
      (by show i0.val = win0_3.index t (0 : Fin 3) * 10 + bb.val; omega)
      (by show k.val = win0_3.index t (1 : Fin 3) * 4 + k.val; omega)
      (by show yy.val = win0_3.index t (2 : Fin 3) * 128 + yy.val; omega)

/-- What point t writes back is block t of the padded arrays' prediction. -/
theorem flushed_eq (c : Dev nD) (t : Fin cfg0.N) :
    (dats m 0 c).flushed 4 t = ((cfg0.win 4).blk t).view.read (Elt Ideal)
      (Tree.arrR (B := 130) (L := 1024) (V m c main_v1) (V m c main_v2) (V m c main_v3) (V m c main_v4)) := by
  show (cfg0.win 4).cut (grid0.coords t) ((dats m 0 c).after 4 t) = _
  rw [after0_4]
  unfold out0_4
  rw [View.canon_unit_zero hz]
  simp only [View.ld_unit_zero (S := S10x512x128) hz, View.ld_unit_zero (S := S10x128x3) hz,
    View.ld_unit_zero (S := S10x1x3) hz, View.ld_unit_zero (S := S10x4x128) hz]
  funext y
  exact flushed_pt m c t y

/-! ## The blocks tile the array -/

/-- An index of the array is in point t's block iff each coordinate is in the block's range on its axis. -/
theorem mem_blk (t : Fin cfg0.N) (i : S130x1024x128.Idx) :
    i ∈ ((cfg0.win 4).blk t).view.set ↔ ∀ a : Fin 3, win0_4.index t a * S10x512x128.size a ≤ (i a).val
      ∧ (i a).val < win0_4.index t a * S10x512x128.size a + S10x512x128.size a := by
  show i ∈ ((View.whole main_v5).slice (win0_4.rect t)).set ↔ _
  rw [View.set_slice_whole, Rect.mem_set_unit]
  exact Iff.rfl

/-- Every index of the array lies in the block of the point (member / 10, row / 512), and every point writes back. -/
theorem cover (i : S130x1024x128.Idx) :
    ∃ t : Fin cfg0.N, (cfg0.win 4).flush t = true ∧ i ∈ ((cfg0.win 4).blk t).view.set := by
  have hi0 : (i 0).val < 130 := (i 0).isLt
  have hi1 : (i 1).val < 1024 := (i 1).isLt
  have hi2 : (i 2).val < 128 := (i 2).isLt
  obtain ⟨t, ht⟩ := idx_onto ⟨(i 0).val / 10, by omega⟩ ⟨(i 1).val / 512, by omega⟩
  have q0 : win0_4.index t (0 : Fin 3) = (i 0).val / 10 := congrFun ht 0
  have q1 : win0_4.index t (1 : Fin 3) = (i 1).val / 512 := congrFun ht 1
  have q2 : win0_4.index t (2 : Fin 3) = 0 := congrFun ht 2
  refine ⟨t, flush0_4 t, ?_⟩
  rw [mem_blk]
  intro a
  match a with
  | ⟨0, _⟩ => show win0_4.index t (0 : Fin 3) * 10 ≤ (i 0).val ∧ (i 0).val < win0_4.index t (0 : Fin 3) * 10 + 10; omega
  | ⟨1, _⟩ => show win0_4.index t (1 : Fin 3) * 512 ≤ (i 1).val ∧ (i 1).val < win0_4.index t (1 : Fin 3) * 512 + 512; omega
  | ⟨2, _⟩ => show win0_4.index t (2 : Fin 3) * 128 ≤ (i 2).val ∧ (i 2).val < win0_4.index t (2 : Fin 3) * 128 + 128; omega

/-- The result window's array after the run: the padded arrays' prediction. -/
theorem final (c : Dev nD) : (dats m 0 c).arrAt 4 cfg0.N
    = Tree.arrR (B := 130) (L := 1024) (V m c main_v1) (V m c main_v2) (V m c main_v3) (V m c main_v4) :=
  (dats m 0 c).arrAt_eq_of_cover 4
    (Tree.arrR (B := 130) (L := 1024) (V m c main_v1) (V m c main_v2) (V m c main_v3) (V m c main_v4))
    (fun t _ => flushed_eq m c t) cover

/-! ## The padded arrays as the region finds them -/

/-- The region finds the rows padded: the host lines before it pad the batch axis with two members. -/
theorem V_main_v1 (c : Dev nD) : (V m c main_v1 : S130x1024x128.Idx → EReal)
    = pad S130x1024x128 ![0, 0, 0] ![2, 0, 0] ![0, 0, 0] (m ((c : Thread nD τ).loc main_arg0))
        (sitofp (F := Ideal) .f32 (constantI S_ 32 0#32)) pads_S128x1024x128_S130x1024x128_020_000_000 h_S_ := by
  dsimp only [Gen.V, Gen.V0]
  simp only [Gen.hostOps0, Gen.hostOps0_1, Gen.hostOps0_2, Gen.hostOps0_3, Gen.hostOps0_4, Gen.hostOps0_5, Gen.hostOps0_6,
    Gen.hostOps0_7, List.flatten_cons, List.flatten_nil, List.append_nil, List.cons_append, List.nil_append]
  after_results
  rfl

/-- The region finds the one-hot matrices padded: the host lines before it pad the batch axis with two members. -/
theorem V_main_v2 (c : Dev nD) : (V m c main_v2 : S130x128x3.Idx → EReal)
    = pad S130x128x3 ![0, 0, 0] ![2, 0, 0] ![0, 0, 0] (m ((c : Thread nD τ).loc main_arg1))
        (sitofp (F := Ideal) .f32 (constantI S_ 32 0#32)) pads_S128x128x3_S130x128x3_020_000_000 h_S_ := by
  dsimp only [Gen.V, Gen.V0]
  simp only [Gen.hostOps0, Gen.hostOps0_1, Gen.hostOps0_2, Gen.hostOps0_3, Gen.hostOps0_4, Gen.hostOps0_5, Gen.hostOps0_6,
    Gen.hostOps0_7, List.flatten_cons, List.flatten_nil, List.append_nil, List.cons_append, List.nil_append]
  after_results
  rfl

/-- The region finds the thresholds, laid out as [128, 1, 3], padded: the host lines before it pad the batch axis with two members. -/
theorem V_main_v3 (c : Dev nD) : (V m c main_v3 : S130x1x3.Idx → EReal)
    = pad S130x1x3 ![0, 0, 0] ![2, 0, 0] ![0, 0, 0] (broadcastInDim S128x1x3 ![0, 2] bcast_S128x3_S128x1x3_0_2 (m ((c : Thread nD τ).loc main_arg2)))
        (sitofp (F := Ideal) .f32 (constantI S_ 32 0#32)) pads_S128x1x3_S130x1x3_020_000_000 h_S_ := by
  dsimp only [Gen.V, Gen.V0]
  simp only [Gen.hostOps0, Gen.hostOps0_1, Gen.hostOps0_2, Gen.hostOps0_3, Gen.hostOps0_4, Gen.hostOps0_5, Gen.hostOps0_6,
    Gen.hostOps0_7, List.flatten_cons, List.flatten_nil, List.append_nil, List.cons_append, List.nil_append]
  after_results
  rfl

/-- The region finds the leaves padded: the host lines before it pad the batch axis with two members. -/
theorem V_main_v4 (c : Dev nD) : (V m c main_v4 : S130x4x128.Idx → EReal)
    = pad S130x4x128 ![0, 0, 0] ![2, 0, 0] ![0, 0, 0] (m ((c : Thread nD τ).loc main_arg3))
        (sitofp (F := Ideal) .f32 (constantI S_ 32 0#32)) pads_S128x4x128_S130x4x128_020_000_000 h_S_ := by
  dsimp only [Gen.V, Gen.V0]
  simp only [Gen.hostOps0, Gen.hostOps0_1, Gen.hostOps0_2, Gen.hostOps0_3, Gen.hostOps0_4, Gen.hostOps0_5, Gen.hostOps0_6,
    Gen.hostOps0_7, List.flatten_cons, List.flatten_nil, List.append_nil, List.cons_append, List.nil_append]
  after_results
  rfl

/-! ## A member below 128 of a padded array is the argument's -/

theorem rows_apply (c : Dev nD) (b' : Fin 130) (b : Fin 128) (hb : b'.val = b.val) (l : Fin 1024) (d : Fin 128) :
    (V m c main_v1 : S130x1024x128.Idx → EReal) (ix3 b' l d)
      = (m ((c : Thread nD τ).loc main_arg0) : S128x1024x128.Idx → EReal) (ix3 b l d) := by
  rw [V_main_v1]
  refine pad_apply_of_inside _ _ _ _ _ _ _ (ix3 b' l d) (ix3 b l d) fun a => ?_
  match a with
  | ⟨0, _⟩ => show b'.val = 0 + b.val * (0 + 1); omega
  | ⟨1, _⟩ => show l.val = 0 + l.val * (0 + 1); omega
  | ⟨2, _⟩ => show d.val = 0 + d.val * (0 + 1); omega

theorem onehot_apply (c : Dev nD) (b' : Fin 130) (b : Fin 128) (hb : b'.val = b.val) (d : Fin 128) (n : Fin 3) :
    (V m c main_v2 : S130x128x3.Idx → EReal) (ix3 b' d n)
      = (m ((c : Thread nD τ).loc main_arg1) : S128x128x3.Idx → EReal) (ix3 b d n) := by
  rw [V_main_v2]
  refine pad_apply_of_inside _ _ _ _ _ _ _ (ix3 b' d n) (ix3 b d n) fun a => ?_
  match a with
  | ⟨0, _⟩ => show b'.val = 0 + b.val * (0 + 1); omega
  | ⟨1, _⟩ => show d.val = 0 + d.val * (0 + 1); omega
  | ⟨2, _⟩ => show n.val = 0 + n.val * (0 + 1); omega

theorem thr_apply (c : Dev nD) (b' : Fin 130) (b : Fin 128) (hb : b'.val = b.val) (n : Fin 3) :
    (V m c main_v3 : S130x1x3.Idx → EReal) (ix3 b' (0 : Fin 1) n)
      = (broadcastInDim S128x1x3 ![0, 2] bcast_S128x3_S128x1x3_0_2 (m ((c : Thread nD τ).loc main_arg2)) : S128x1x3.Idx → EReal)
          (ix3 b (0 : Fin 1) n) := by
  rw [V_main_v3]
  refine pad_apply_of_inside _ _ _ _ _ _ _ (ix3 b' (0 : Fin 1) n) (ix3 b (0 : Fin 1) n) fun a => ?_
  match a with
  | ⟨0, _⟩ => show b'.val = 0 + b.val * (0 + 1); omega
  | ⟨1, _⟩ => show (0 : Fin 1).val = 0 + (0 : Fin 1).val * (0 + 1); omega
  | ⟨2, _⟩ => show n.val = 0 + n.val * (0 + 1); omega

theorem leaf_apply (c : Dev nD) (b' : Fin 130) (b : Fin 128) (hb : b'.val = b.val) (k : Fin 4) (y : Fin 128) :
    (V m c main_v4 : S130x4x128.Idx → EReal) (ix3 b' k y)
      = (m ((c : Thread nD τ).loc main_arg3) : S128x4x128.Idx → EReal) (ix3 b k y) := by
  rw [V_main_v4]
  refine pad_apply_of_inside _ _ _ _ _ _ _ (ix3 b' k y) (ix3 b k y) fun a => ?_
  match a with
  | ⟨0, _⟩ => show b'.val = 0 + b.val * (0 + 1); omega
  | ⟨1, _⟩ => show k.val = 0 + k.val * (0 + 1); omega
  | ⟨2, _⟩ => show y.val = 0 + y.val * (0 + 1); omega

/-! ## The host line after the region, and the run -/

/-- The result: the first 128 members cut out of the padded arrays' prediction are the arguments' prediction. -/
theorem tail (c : Dev nD) : Pipeline.afterTail₀ cfgs (dats m) 0 (V0 m) [hostOps1] c main_v6
    = Tree.arrR (B := 128) (L := 1024) (m ((c : Thread nD τ).loc main_arg0)) (m ((c : Thread nD τ).loc main_arg1))
        (broadcastInDim S128x1x3 ![0, 2] bcast_S128x3_S128x1x3_0_2 (m ((c : Thread nD τ).loc main_arg2)))
        (m ((c : Thread nD τ).loc main_arg3)) := by
  unfold Pipeline.afterTail₀
  show StableHlo.after hostOps1 _ (Proc.devRef .tc main_v6) = _
  after_results
  have hw : Pipeline.withArrays (cfgs 0).spec c (V0 m c) (fun w => (dats m 0 c).arrAt w (cfgs 0).N) (Proc.devRef .tc main_v5)
      = Tree.arrR (B := 130) (L := 1024) (V m c main_v1) (V m c main_v2) (V m c main_v3) (V m c main_v4) :=
    (Pipeline.withArrays_arr spec0 launch0.win.arr_inj c _ _ 4).trans (final m c)
  rw [hw]
  funext i
  obtain ⟨b, l, y, rfl⟩ : ∃ (b : Fin 128) (l : Fin 1024) (y : Fin 128), i = ix3 b l y := ⟨i 0, i 1, i 2, eq_ix3 i⟩
  have hb : b.val < 128 := b.isLt
  refine (extractStridedSlice_apply _ _ _ (ix3 b l y) (ix3 (⟨b.val, by omega⟩ : Fin 130) l y) fun a => ?_).trans ?_
  · match a with
    | ⟨0, _⟩ => show b.val = 0 + b.val; omega
    | ⟨1, _⟩ => show l.val = 0 + l.val; omega
    | ⟨2, _⟩ => show y.val = 0 + y.val; omega
  · show Tree.outR (B := 130) (L := 1024) (V m c main_v1) (V m c main_v2) (V m c main_v3) (V m c main_v4)
        (⟨b.val, by omega⟩ : Fin 130) l y
      = Tree.outR (B := 128) (L := 1024) (m ((c : Thread nD τ).loc main_arg0)) (m ((c : Thread nD τ).loc main_arg1))
          (broadcastInDim S128x1x3 ![0, 2] bcast_S128x3_S128x1x3_0_2 (m ((c : Thread nD τ).loc main_arg2)))
          (m ((c : Thread nD τ).loc main_arg3)) b l y
    exact Tree.outR_congr y (fun d => rows_apply m c _ b rfl l d) (fun d n => onehot_apply m c _ b rfl d n)
      (fun n => thr_apply m c _ b rfl n) (fun k => leaf_apply m c _ b rfl k y)

/-- The reference's run: its result array ends at the tree's prediction of the argument arrays, which end unchanged. -/
theorem run : θ_run defs (onTc (τ := τ) (main (F := Ideal))) ⟨m, fun _ => 0, ρ⟩ fun r => ∀ c : Dev nD,
      r.2.mem ((c : Thread nD τ).loc main_v6)
        = Tree.arrR (B := 128) (L := 1024) (m ((c : Thread nD τ).loc main_arg0)) (m ((c : Thread nD τ).loc main_arg1))
            (broadcastInDim S128x1x3 ![0, 2] bcast_S128x3_S128x1x3_0_2 (m ((c : Thread nD τ).loc main_arg2)))
            (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) := by
  exact (θ_run defs _ _).mono (fun r h c =>
    ⟨((h c).2 main_v6 (Pipeline.mem_restRefs_of main_v6 (by decide) (by decide))).trans (tail m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c)⟩)
    (run_main m ρ)

end Cert.ReferenceIdeal.RefValue

end
-- ==== Proof.lean ====
/-
  A depth-2 decision tree evaluated per batch member, two ways. The kernel takes one batch member and 512 rows per
  grid point: it gathers the three split features of every row by a matrix product with the member's one-hot
  columns, compares each (plus a margin) with the member's threshold to get three 0/1 decisions, forms the four leaf
  weights, lays them side by side and multiplies them into the member's four leaf rows by a second matrix product.
  The reference pads the batch to 130 members, takes ten members and 512 rows per grid point, gathers the features
  by a batched product, forms the weights with the right subtree's weight spelt as a product, adds the four weighted
  leaf rows one after the other, and cuts the two padded members away.

  At the extended reals both result arrays are one function of the arguments (Proof/TreeSpec.lean): the decisions
  are literally the same comparisons of the same sums, the weights agree because every decision is 0 or 1
  (`c₂ − c₀c₂ = (1 − c₀)·c₂` at c₀, c₂ ∈ {0, 1}), and the two ways of adding four products are one sum. No leaf value
  or input needs to be finite for this, so the precondition is never opened.

  Proof/KernelPayload.lean reads the kernel's body at an index, Proof/KernelValue.lean carries the blocks to the whole
  array (256 blocks tile it); Proof/RefPayload.lean and Proof/RefValue.lean do the same for the reference, through
  its pads and its final cut. The three frames are the generated ones; the idealization rewrote
  nothing, so `preserves` is `True`.
-/
import proofs.«159293_g2000404328929888_pallasbulk_837_2_alg».proof.Defs
import proofs.«159293_g2000404328929888_pallasbulk_837_2_alg».proof.Proof.Gen.Kernel
import proofs.«159293_g2000404328929888_pallasbulk_837_2_alg».proof.Proof.Gen.Kernel.Frame
import proofs.«159293_g2000404328929888_pallasbulk_837_2_alg».proof.Proof.Gen.KernelIdeal
import proofs.«159293_g2000404328929888_pallasbulk_837_2_alg».proof.Proof.Gen.KernelIdeal.Frame
import proofs.«159293_g2000404328929888_pallasbulk_837_2_alg».proof.Proof.Gen.KernelIdeal.Value
import proofs.«159293_g2000404328929888_pallasbulk_837_2_alg».proof.Proof.Gen.ReferenceIdeal
import proofs.«159293_g2000404328929888_pallasbulk_837_2_alg».proof.Proof.Gen.ReferenceIdeal.Frame
import proofs.«159293_g2000404328929888_pallasbulk_837_2_alg».proof.Proof.Gen.Pre_finite_inputs
import proofs.«159293_g2000404328929888_pallasbulk_837_2_alg».proof.Proof.TreeSpec
import proofs.«159293_g2000404328929888_pallasbulk_837_2_alg».proof.Proof.KernelValue
import proofs.«159293_g2000404328929888_pallasbulk_837_2_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ => Cert.ReferenceIdeal.Gen.frame m ρ

/-- The ideal pass rewrote no operation of the kernel. -/
theorem preserves : Cert.preserves_Kernel_KernelIdeal := trivial

/-- From memories that agree on the four arguments, the kernel's result array ends at the tree's prediction with the
    leaf weights contracted by a matrix product, the reference's at the prediction with the weighted leaves added
    one by one: the same array. -/
theorem algebraic : Cert.algebraic_KernelIdeal_ReferenceIdeal := by
  intro m ρ m' ρ' _ hagree
  refine ⟨_, Cert.KernelIdeal.TreeValue.run m ρ, ?_⟩
  refine (θ_run Cert.ReferenceIdeal.defs _ _).mono (fun _ h c => ⟨(h c).1.trans ?_, (h c).2⟩)
    (Cert.ReferenceIdeal.RefValue.run m' ρ')
  rw [(hagree c).1, (hagree c).2.1, (hagree c).2.2.1, (hagree c).2.2.2]
  exact (Tree.arrK_eq_arrR _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
